-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x800000 : Shape := ⟨2, ![2, 800000]⟩
abbrev S50000 : Shape := ⟨1, ![50000]⟩
abbrev S9x256 : Shape := ⟨2, ![9, 256]⟩
abbrev S256 : Shape := ⟨1, ![256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S_ : Shape := ⟨0, ![]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S9x256 : S_.BroadcastsInDim S9x256 (![] : Fin 0 → Fin S9x256.rank)
  reducesTo_S9x256_S_d0_1 : S9x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S4x256 .f32) (main_arg7 : FVec F S256x1 .f32) (main_arg8 : FVec F S1 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x9 .f32) (main_arg1 : IVec S2x800000 32) (main_arg2 : IVec S50000 32) (main_arg3 : FVec F S9x256 .f32) (main_arg4 : FVec F S256 .f32) (main_arg5 : FVec F S4x256x256 .f32) (main_arg6 : FVec F S4x256 .f32) (main_arg7 : FVec F S256x1 .f32) (main_arg8 : FVec F S1 .f32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S9x256 .f32 := Host.absf main_arg3
  let main_cst_0 : FVec F S_ .f32 := constant S_ .f32 0x7F800000#32
  let main_v5 : FVec F S9x256 .f32 := broadcastInDim S9x256 ![] bcast_S_S9x256 main_cst_0
  let main_v6 : IVec S9x256 1 := cmpf .olt main_v4 main_v5
  let main_c_1 : IVec S_ 1 := constantI S_ 1 1#1
  let main_v7 : IVec S_ 1 := (fun x v => Host.reduce IntOp.andi x v reducesTo_S9x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x256x256 .f32 := Host.absf main_arg5
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg6 main_arg7 main_arg8 main_v13 main_v16
-- ==== Kernel.lean ====
abbrev S50000x9 : Shape := ⟨2, ![50000, 9]⟩
abbrev S2x800000 : Shape := ⟨2, ![2, 800000]⟩
abbrev S50000 : Shape := ⟨1, ![50000]⟩
abbrev S9x256 : Shape := ⟨2, ![9, 256]⟩
abbrev S256 : Shape := ⟨1, ![256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S5000x9 : Shape := ⟨2, ![5000, 9]⟩
abbrev S5000x256 : Shape := ⟨2, ![5000, 256]⟩
abbrev S1x256x256 : Shape := ⟨3, ![1, 256, 256]⟩
abbrev S256x256 : Shape := ⟨2, ![256, 256]⟩
abbrev S800000x256 : Shape := ⟨2, ![800000, 256]⟩
abbrev S2000x256 : Shape := ⟨2, ![2000, 256]⟩
abbrev S512x256 : Shape := ⟨2, ![512, 256]⟩
abbrev S512 : Shape := ⟨1, ![512]⟩
abbrev S512x1 : Shape := ⟨2, ![512, 1]⟩
abbrev S1x1 : Shape := ⟨2, ![1, 1]⟩

abbrev nBuf : Space → Nat
  | .hbm => 164
  | .vmem => 58
  | .smem => 0
  | _ => 0

abbrev hbmTy0_0 (i : Nat) : BufTy := match i % 128 with
  | 0 => ⟨S50000x9, .f32⟩
  | 1 => ⟨S2x800000, .i32⟩
  | 2 => ⟨S50000, .i32⟩
  | 3 => ⟨S9x256, .f32⟩
  | 4 => ⟨S256, .f32⟩
  | 5 => ⟨S4x256x256, .f32⟩
  | 6 => ⟨S4x256, .f32⟩
  | 7 => ⟨S256x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S50000x1, .f32⟩
  | 44 => ⟨S1x256, .f32⟩
  | 45 => ⟨S50000x256, .f32⟩
  | 46 => ⟨S1x256x256, .f32⟩
  | 47 => ⟨S256x256, .f32⟩
  | 48 => ⟨S50000x256, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x1, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000x256, .f32⟩
  | 66 => ⟨S50000x256, .f32⟩
  | 67 => ⟨S1x256, .f32⟩
  | 68 => ⟨S256, .f32⟩
  | 69 => ⟨S1x256, .f32⟩
  | 70 => ⟨S50000x256, .f32⟩
  | 71 => ⟨S1x256x256, .f32⟩
  | 72 => ⟨S256x256, .f32⟩
  | 73 => ⟨S50000x256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x256, .f32⟩
  | 83 => ⟨S800000x1, .f32⟩
  | 84 => ⟨S800000x256, .f32⟩
  | 85 => ⟨S800000x256, .f32⟩
  | 86 => ⟨S_, .f32⟩
  | 87 => ⟨S50000x256, .f32⟩
  | 88 => ⟨S800000x1, .i32⟩
  | 89 => ⟨S50000x256, .f32⟩
  | 90 => ⟨S50000x256, .f32⟩
  | 91 => ⟨S50000x256, .f32⟩
  | 92 => ⟨S1x256, .f32⟩
  | 93 => ⟨S256, .f32⟩
  | 94 => ⟨S1x256, .f32⟩
  | 95 => ⟨S50000x256, .f32⟩
  | 96 => ⟨S1x256x256, .f32⟩
  | 97 => ⟨S256x256, .f32⟩
  | 98 => ⟨S50000x256, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S800000x1, .f32⟩
  | 109 => ⟨S800000x256, .f32⟩
  | 110 => ⟨S800000x256, .f32⟩
  | 111 => ⟨S_, .f32⟩
  | 112 => ⟨S50000x256, .f32⟩
  | 113 => ⟨S800000x1, .i32⟩
  | 114 => ⟨S50000x256, .f32⟩
  | 115 => ⟨S50000x256, .f32⟩
  | 116 => ⟨S50000x256, .f32⟩
  | 117 => ⟨S1x256, .f32⟩
  | 118 => ⟨S256, .f32⟩
  | 119 => ⟨S1x256, .f32⟩
  | 120 => ⟨S50000x256, .f32⟩
  | 121 => ⟨S1x256x256, .f32⟩
  | 122 => ⟨S256x256, .f32⟩
  | 123 => ⟨S50000x256, .f32⟩
  | 124 => ⟨S_, .i32⟩
  | 125 => ⟨S800000, .i32⟩
  | 126 => ⟨S800000, .i1⟩
  | 127 => ⟨S_, .i32⟩
  | _ => ⟨S50000x9, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x256, .f32⟩
  | 5 => ⟨S800000x1, .f32⟩
  | 6 => ⟨S800000x256, .f32⟩
  | 7 => ⟨S800000x256, .f32⟩
  | 8 => ⟨S_, .f32⟩
  | 9 => ⟨S50000x256, .f32⟩
  | 10 => ⟨S800000x1, .i32⟩
  | 11 => ⟨S50000x256, .f32⟩
  | 12 => ⟨S50000x256, .f32⟩
  | 13 => ⟨S50000x256, .f32⟩
  | 14 => ⟨S1x256, .f32⟩
  | 15 => ⟨S256, .f32⟩
  | 16 => ⟨S1x256, .f32⟩
  | 17 => ⟨S50000x256, .f32⟩
  | 18 => ⟨S_, .f32⟩
  | 19 => ⟨S512x256, .f32⟩
  | 20 => ⟨S50000x1, .i32⟩
  | 21 => ⟨S512x256, .f32⟩
  | 22 => ⟨S_, .f32⟩
  | 23 => ⟨S50000, .f32⟩
  | 24 => ⟨S_, .f32⟩
  | 25 => ⟨S512, .f32⟩
  | 26 => ⟨S50000x1, .i32⟩
  | 27 => ⟨S512, .f32⟩
  | 28 => ⟨S_, .f32⟩
  | 29 => ⟨S512, .f32⟩
  | 30 => ⟨S512, .f32⟩
  | 31 => ⟨S512x1, .f32⟩
  | 32 => ⟨S512x256, .f32⟩
  | 33 => ⟨S512x256, .f32⟩
  | 34 => ⟨S1x1, .f32⟩
  | 35 => ⟨S512x1, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | .local _ .vmem, ⟨0, _⟩ => ⟨S5000x9, .f32⟩
  | .local _ .vmem, ⟨1, _⟩ => ⟨S5000x9, .f32⟩
  | .local _ .vmem, ⟨2, _⟩ => ⟨S9x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S5000x256, .f32⟩
  | .local _ .vmem, ⟨10, _⟩ => ⟨S5000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S5000x256, .f32⟩
  | .local _ .vmem, ⟨19, _⟩ => ⟨S5000x256, .f32⟩
  | .local _ .vmem, ⟨20, _⟩ => ⟨S256x256, .f32⟩
  | .local _ .vmem, ⟨21, _⟩ => ⟨S5000x256, .f32⟩
  | .local _ .vmem, ⟨22, _⟩ => ⟨S5000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S5000x256, .f32⟩
  | .local _ .vmem, ⟨31, _⟩ => ⟨S5000x256, .f32⟩
  | .local _ .vmem, ⟨32, _⟩ => ⟨S256x256, .f32⟩
  | .local _ .vmem, ⟨33, _⟩ => ⟨S5000x256, .f32⟩
  | .local _ .vmem, ⟨34, _⟩ => ⟨S5000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S5000x256, .f32⟩
  | .local _ .vmem, ⟨43, _⟩ => ⟨S5000x256, .f32⟩
  | .local _ .vmem, ⟨44, _⟩ => ⟨S256x256, .f32⟩
  | .local _ .vmem, ⟨45, _⟩ => ⟨S5000x256, .f32⟩
  | .local _ .vmem, ⟨46, _⟩ => ⟨S5000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S512x256, .f32⟩
  | .local _ .vmem, ⟨55, _⟩ => ⟨S256x1, .f32⟩
  | .local _ .vmem, ⟨56, _⟩ => ⟨S1x1, .f32⟩
  | .local _ .vmem, ⟨57, _⟩ => ⟨S512x1, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_11 : Ref sig .tc := ⟨.hbm, 99, rfl⟩
abbrev main_v77 : Ref sig .tc := ⟨.hbm, 100, rfl⟩
abbrev main_v78 : Ref sig .tc := ⟨.hbm, 101, rfl⟩
abbrev main_c_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_c_14 : Ref sig .tc := ⟨.hbm, 124, rfl⟩
abbrev main_v99 : Ref sig .tc := ⟨.hbm, 125, rfl⟩
abbrev main_v100 : Ref sig .tc := ⟨.hbm, 126, rfl⟩
abbrev main_c_15 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_16 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_17 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_18 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_20 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem1_1 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem1_0 : DmaSem sig := 55
abbrev cc9_sem2_0 : DmaSem sig := 56
abbrev cc9_sem3_0 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S512x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S256x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S256_S1x256 : S256.ShapeCasts S1x256
  inb_S5000x9_S5000x9_0_0 : ∀ a, (![0, 0] : Fin 2 → Nat) a + S5000x9.size a ≤ S5000x9.size a
  h_S5000x9 : 0 < S5000x9.numel
  bitsLt_bf16_f32 : FTy.bits .bf16 < FTy.bits .f32
  inb_S9x256_S9x256_0_0 : ∀ a, (![0, 0] : Fin 2 → Nat) a + S9x256.size a ≤ S9x256.size a
  h_S9x256 : 0 < S9x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S4x256x256_S1x256x256_0_0_0 : S4x256x256.Slices ![0, 0, 0] S1x256x256
  shapeCasts_S1x256x256_S256x256 : S1x256x256.ShapeCasts S256x256
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S4x256_S1x256_0_0 : S4x256.Slices ![0, 0] S1x256
  shapeCasts_S1x256_S256 : S1x256.ShapeCasts S256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x9_S9x256_S5000x256_1_0_0_1_n_n_wf : DotDims.WF S5000x9 S9x256 S5000x256 [1] [0] [0] [1] [] []
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S50000x9.size a
  hwx0_0 : ∀ i : grid0.Coords, EltTy.bits .f32 = 32 ∨ (Rect.block (s := S50000x9) S5000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x256.size a ≤ S9x256.size a
  hwx0_1 : ∀ i : grid0.Coords, EltTy.bits .f32 = 32 ∨ (Rect.block (s := S9x256) S9x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S50000x256.size a
  hwx5_2 : ∀ i : grid5.Coords, EltTy.bits .f32 = 32 ∨ (Rect.block (s := S50000x256) S5000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S50000x256.size a
  hwx6_3 : ∀ i : grid6.Coords, EltTy.bits .f32 = 32 ∨ (Rect.block (s := S50000x256) S2000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S50000x256.size a
  hwx7_0 : ∀ i : grid7.Coords, EltTy.bits .f32 = 32 ∨ (Rect.block (s := S50000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x256.size a ≤ S50000x256.size a
  hwx7_2 : ∀ i : grid7.Coords, EltTy.bits .f32 = 32 ∨ (Rect.block (s := S50000x256) S5000x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x256.size a ≤ S50000x256.size a
  hwx8_1 : ∀ i : grid8.Coords, EltTy.bits .f32 = 32 ∨ (Rect.block (s := S50000x256) S2000x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x256.size a ≤ S50000x256.size a
  hwx8_3 : ∀ i : grid8.Coords, EltTy.bits .f32 = 32 ∨ (Rect.block (s := S50000x256) S2000x256.size (cc8_transform_3 i) (hinb8_3 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S512x256.size a ≤ S512x256.size a
  hwx9_0 : ∀ i : grid9.Coords, EltTy.bits .f32 = 32 ∨ (Rect.block (s := S512x256) S512x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x1.size a ≤ S256x1.size a
  hwx9_1 : ∀ i : grid9.Coords, EltTy.bits .f32 = 32 ∨ (Rect.block (s := S256x1) S256x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x1.size a ≤ S512x1.size a
  hwx9_3 : ∀ i : grid9.Coords, EltTy.bits .f32 = 32 ∨ (Rect.block (s := S512x1) S512x1.size (cc9_transform_3 i) (hinb9_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x9_S9x256_S5000x256_1_0_0_1_n_n : DotDims S5000x9 S9x256 S5000x256 where
  lhsContracting := [1]
  rhsContracting := [0]
  lhsNonContracting := [0]
  rhsNonContracting := [1]
  lhsBatch := []
  rhsBatch := []
  wf := dot_S5000x9_S9x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v95) S2000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v95) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v98) S5000x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v111) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v113) S2000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v116) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S2000x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v129) S512x256.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S256x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v130) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131) S512x1.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x9 : Shape := ⟨2, ![50000, 9]⟩
abbrev S2x800000 : Shape := ⟨2, ![2, 800000]⟩
abbrev S50000 : Shape := ⟨1, ![50000]⟩
abbrev S9x256 : Shape := ⟨2, ![9, 256]⟩
abbrev S256 : Shape := ⟨1, ![256]⟩
abbrev S4x256x256 : Shape := ⟨3, ![4, 256, 256]⟩
abbrev S4x256 : Shape := ⟨2, ![4, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S800000x256 : Shape := ⟨2, ![800000, 256]⟩
abbrev S512x256 : Shape := ⟨2, ![512, 256]⟩
abbrev S512 : Shape := ⟨1, ![512]⟩
abbrev S512x1 : Shape := ⟨2, ![512, 1]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S50000x9, .f32⟩
  | 1 => ⟨S2x800000, .i32⟩
  | 2 => ⟨S50000, .i32⟩
  | 3 => ⟨S9x256, .f32⟩
  | 4 => ⟨S256, .f32⟩
  | 5 => ⟨S4x256x256, .f32⟩
  | 6 => ⟨S4x256, .f32⟩
  | 7 => ⟨S256x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S50000x1, .f32⟩
  | 44 => ⟨S50000x256, .f32⟩
  | 45 => ⟨S1x256, .f32⟩
  | 46 => ⟨S50000x256, .f32⟩
  | 47 => ⟨S50000x256, .f32⟩
  | 48 => ⟨S_, .f32⟩
  | 49 => ⟨S50000x256, .f32⟩
  | 50 => ⟨S50000x256, .f32⟩
  | 51 => ⟨S1x256x256, .f32⟩
  | 52 => ⟨S256x256, .f32⟩
  | 53 => ⟨S50000x256, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S800000x1, .f32⟩
  | 64 => ⟨S800000x256, .f32⟩
  | 65 => ⟨S800000x256, .f32⟩
  | 66 => ⟨S_, .f32⟩
  | 67 => ⟨S50000x256, .f32⟩
  | 68 => ⟨S800000x1, .i32⟩
  | 69 => ⟨S50000x256, .f32⟩
  | 70 => ⟨S50000x256, .f32⟩
  | 71 => ⟨S50000x256, .f32⟩
  | 72 => ⟨S50000x256, .f32⟩
  | 73 => ⟨S1x256, .f32⟩
  | 74 => ⟨S256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S1x256x256, .f32⟩
  | 82 => ⟨S256x256, .f32⟩
  | 83 => ⟨S50000x256, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x256, .f32⟩
  | 93 => ⟨S800000x1, .f32⟩
  | 94 => ⟨S800000x256, .f32⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S50000x256, .f32⟩
  | 101 => ⟨S50000x256, .f32⟩
  | 102 => ⟨S50000x256, .f32⟩
  | 103 => ⟨S1x256, .f32⟩
  | 104 => ⟨S256, .f32⟩
  | 105 => ⟨S1x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S1x256x256, .f32⟩
  | 112 => ⟨S256x256, .f32⟩
  | 113 => ⟨S50000x256, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x256, .f32⟩
  | 123 => ⟨S800000x1, .f32⟩
  | 124 => ⟨S800000x256, .f32⟩
  | 125 => ⟨S800000x256, .f32⟩
  | 126 => ⟨S_, .f32⟩
  | 127 => ⟨S50000x256, .f32⟩
  | _ => ⟨S50000x9, .f32⟩

abbrev hbmTy0_1 (i : Nat) : BufTy := match i % 128 with
  | 0 => ⟨S800000x1, .i32⟩
  | 1 => ⟨S50000x256, .f32⟩
  | 2 => ⟨S50000x256, .f32⟩
  | 3 => ⟨S50000x256, .f32⟩
  | 4 => ⟨S50000x256, .f32⟩
  | 5 => ⟨S1x256, .f32⟩
  | 6 => ⟨S256, .f32⟩
  | 7 => ⟨S1x256, .f32⟩
  | 8 => ⟨S50000x256, .f32⟩
  | 9 => ⟨S50000x256, .f32⟩
  | 10 => ⟨S_, .f32⟩
  | 11 => ⟨S50000x256, .f32⟩
  | 12 => ⟨S50000x256, .f32⟩
  | 13 => ⟨S1x256x256, .f32⟩
  | 14 => ⟨S256x256, .f32⟩
  | 15 => ⟨S50000x256, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S800000x1, .f32⟩
  | 26 => ⟨S800000x256, .f32⟩
  | 27 => ⟨S800000x256, .f32⟩
  | 28 => ⟨S_, .f32⟩
  | 29 => ⟨S50000x256, .f32⟩
  | 30 => ⟨S800000x1, .i32⟩
  | 31 => ⟨S50000x256, .f32⟩
  | 32 => ⟨S50000x256, .f32⟩
  | 33 => ⟨S50000x256, .f32⟩
  | 34 => ⟨S50000x256, .f32⟩
  | 35 => ⟨S1x256, .f32⟩
  | 36 => ⟨S256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S_, .f32⟩
  | 44 => ⟨S512x256, .f32⟩
  | 45 => ⟨S50000x1, .i32⟩
  | 46 => ⟨S512x256, .f32⟩
  | 47 => ⟨S_, .f32⟩
  | 48 => ⟨S50000, .f32⟩
  | 49 => ⟨S_, .f32⟩
  | 50 => ⟨S512, .f32⟩
  | 51 => ⟨S50000x1, .i32⟩
  | 52 => ⟨S512, .f32⟩
  | 53 => ⟨S_, .f32⟩
  | 54 => ⟨S512, .f32⟩
  | 55 => ⟨S512, .f32⟩
  | 56 => ⟨S512x1, .f32⟩
  | 57 => ⟨S512x256, .f32⟩
  | 58 => ⟨S512x256, .f32⟩
  | 59 => ⟨S512x1, .f32⟩
  | 60 => ⟨S1x1, .f32⟩
  | 61 => ⟨S512x1, .f32⟩
  | 62 => ⟨S512x1, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call1_cst : Ref sig .tc := ⟨.hbm, 78, rfl⟩
abbrev main_call1_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_8 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call2_cst : Ref sig .tc := ⟨.hbm, 108, rfl⟩
abbrev main_call2_v0 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_11 : Ref sig .tc := ⟨.hbm, 114, rfl⟩
abbrev main_v86 : Ref sig .tc := ⟨.hbm, 115, rfl⟩
abbrev main_v87 : Ref sig .tc := ⟨.hbm, 116, rfl⟩
abbrev main_c_12 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_call3_cst : Ref sig .tc := ⟨.hbm, 138, rfl⟩
abbrev main_call3_v0 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_c_14 : Ref sig .tc := ⟨.hbm, 144, rfl⟩
abbrev main_v111 : Ref sig .tc := ⟨.hbm, 145, rfl⟩
abbrev main_v112 : Ref sig .tc := ⟨.hbm, 146, rfl⟩
abbrev main_c_15 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_16 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_call4_cst : Ref sig .tc := ⟨.hbm, 168, rfl⟩
abbrev main_call4_v0 : Ref sig .tc := ⟨.hbm, 169, rfl⟩
abbrev main_v132 : Ref sig .tc := ⟨.hbm, 170, rfl⟩
abbrev main_cst_17 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_18 : Ref sig .tc := ⟨.hbm, 175, rfl⟩
abbrev main_v136 : Ref sig .tc := ⟨.hbm, 176, rfl⟩
abbrev main_cst_19 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_20 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  bcast_S800000x1_S800000x256_0_1 : S800000x1.BroadcastsInDim S800000x256 (![0, 1] : Fin 2 → Fin S800000x256.rank)
  bcast_S50000x1_S50000x256_0_1 : S50000x1.BroadcastsInDim S50000x256 (![0, 1] : Fin 2 → Fin S50000x256.rank)
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x9_S9x256_S50000x256_1_0_0_1_n_n_wf : DotDims.WF S50000x9 S9x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x1_S512x1_1_0_0_1_n_n_wf : DotDims.WF S512x256 S256x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x9_S9x256_S50000x256_1_0_0_1_n_n : DotDims S50000x9 S9x256 S50000x256 where
  lhsContracting := [1]
  rhsContracting := [0]
  lhsNonContracting := [0]
  rhsNonContracting := [1]
  lhsBatch := []
  rhsBatch := []
  wf := dot_S50000x9_S9x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KRun.lean ====
/-
  The run of the ten dense regions and the host stretches between them, with the result buffer in the
  post-condition: every weakly fair execution terminates, the argument arrays end as launched, and the result
  buffer ends at the last boundary's contents (the fold of every stretch and every region's write-backs over the
  launch memory).
-/
import proofs.«109019_j22548578304211_1_alg».proof.Proof.Gen.KernelIdeal.Frame

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution terminates without a fault; the result buffer holds the contents of the last
    segment boundary and each argument array what it held at launch. -/
theorem run_result : θ_run defs (onTc (τ := τ) (main (F := F))) ⟨m, fun _ => 0, ρ⟩ (fun r => ∀ c : Dev nD,
      r.2.mem ((c.tc : Thread nD τ).loc main_v131) = W20 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v131 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c)⟩)

end Cert.KernelIdeal.Rows

end
-- ==== Proof.Layers.lean ====
/-
  The four dense layers of the network as whole-array functions at the ideal values, written with the host's
  operations: the node embedding max(x·W + b, 0), a layer's linear transform h·W, a layer's combine step
  max((a + s) + b, 0), and the output projection p·w + b.  A bias enters as a one-row matrix stretched over the rows.
-/
import proofs.«109019_j22548578304211_1_alg».proof.Proof.Gen.KernelIdeal
import proofs.«109019_j22548578304211_1_alg».proof.Proof.Gen.ReferenceIdeal
import Idealize.ShloMosaic.PureOps.Ideal

noncomputable section

namespace Cert.KernelIdeal.Rows

open Cert.KernelIdeal Idealize.ShloMosaic

/-- The node embedding: max(x·W + b, 0) over [50000, 9] features, [9, 256] weights, a [1, 256] bias row. -/
def embedG (X : FVec Ideal S50000x9 .f32) (W : FVec Ideal S9x256 .f32) (B : FVec Ideal S1x256 .f32) :
    FVec Ideal S50000x256 .f32 :=
  maximumf (addf (Host.dotGeneral Cert.ReferenceIdeal.dot_S50000x9_S9x256_S50000x256_1_0_0_1_n_n none X W)
      (broadcastInDim Cert.ReferenceIdeal.S50000x256 ![0, 1] Cert.ReferenceIdeal.Facts₀.bcast_S1x256_S50000x256_0_1 B))
    (broadcastInDim Cert.ReferenceIdeal.S50000x256 ![] Cert.ReferenceIdeal.Facts₀.bcast_S_S50000x256 (constant (F := Ideal) Cert.ReferenceIdeal.S_ .f32 0x00000000#32))

/-- A layer's linear transform: h·W over [50000, 256] features and [256, 256] weights. -/
def denseG (X : FVec Ideal S50000x256 .f32) (W : FVec Ideal S256x256 .f32) : FVec Ideal S50000x256 .f32 :=
  Host.dotGeneral Cert.ReferenceIdeal.dot_S50000x256_S256x256_S50000x256_1_0_0_1_n_n none X W

/-- A layer's combine step: max((a + s) + b, 0) over two [50000, 256] arrays and a [1, 256] bias row. -/
def combineG (A H : FVec Ideal S50000x256 .f32) (B : FVec Ideal S1x256 .f32) : FVec Ideal S50000x256 .f32 :=
  maximumf (addf (addf A H) (broadcastInDim Cert.ReferenceIdeal.S50000x256 ![0, 1] Cert.ReferenceIdeal.Facts₀.bcast_S1x256_S50000x256_0_1 B))
    (broadcastInDim Cert.ReferenceIdeal.S50000x256 ![] Cert.ReferenceIdeal.Facts₀.bcast_S_S50000x256 (constant (F := Ideal) Cert.ReferenceIdeal.S_ .f32 0x00000000#32))

/-- The output projection: p·w + b over [512, 256] pooled features, a [256, 1] weight column, a [1, 1] bias. -/
def outputG (P : FVec Ideal S512x256 .f32) (W : FVec Ideal S256x1 .f32) (B : FVec Ideal S1x1 .f32) :
    FVec Ideal S512x1 .f32 :=
  addf (Host.dotGeneral Cert.ReferenceIdeal.dot_S512x256_S256x1_S512x1_1_0_0_1_n_n none P W)
    (broadcastInDim Cert.ReferenceIdeal.S512x1 ![0, 1] Cert.ReferenceIdeal.Facts₀.bcast_S1x1_S512x1_0_1 B)

end Cert.KernelIdeal.Rows

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«109019_j22548578304211_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.Region0.lean ====
/-
  The embedding layer: the [50000, 9] node features are cut into ten blocks of 5000 rows; block t of the result is
  max(block t of the features times the whole [9, 256] weight matrix + the one-row bias, 0).  Once all ten blocks
  are written back the result array is the host's max(x·W + b, 0) of the whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff0 : (![0, 0] : Fin 2 → Nat) = fun _ => 0 := funext fun a => by fin_cases a <;> rfl

/-- Block t of the features and of the result starts at row 5000·t; the weights and the bias row are one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the host's layer on the whole arrays. -/
theorem flushed0 (c : Dev nD) (t : Fin cfg0.N) :
    (dat0 V c).flushed 3 t = ((cfg0.win 3).blk t).view.read (Elt Ideal)
      (embedG (V c main_arg0) (V c main_arg3) (V c main_v28)) := by
  show (cfg0.win 3).cut (grid0.coords t) ((dat0 V c).after 3 t) = _
  rw [after0_3]
  unfold out0_3
  rw [View.canon_unit_zero zeroOff0]
  simp only [View.ld_unit_zero (S := S5000x9) zeroOff0, View.ld_unit_zero (S := S9x256) zeroOff0, View.ld_unit_zero (S := S1x256) zeroOff0]
  obtain ⟨a0, a1, b0, b1, c0, c1, o0, o1⟩ := idx0 t
  funext y
  show k0_pay1 (iblk0 V c 0 t) (iblk0 V c 1 t) (iblk0 V c 2 t) y
    = (embedG (V c main_arg0) (V c main_arg3) (V c main_v28)) (((cfg0.win 3).blk t).view.emb y)
  unfold k0_pay1 embedG
  dsimp only
  rw [shapeCast_self]
  refine Cert.Bridge.embed_block .bf16 .bf16 _ rfl _ rfl none none
    (V c main_arg0) (V c main_arg3) (V c main_v28) _ _ _
    (((cfg0.win 0).blk t).view.emb) (((cfg0.win 1).blk t).view.emb) (((cfg0.win 2).blk t).view.emb) (((cfg0.win 3).blk t).view.emb)
    (fun _ => rfl) (fun _ => rfl) (fun _ => rfl) (fun y k => ?_) (fun y k => ?_) (fun y => ?_) _ _ _ 0x00000000#32 y
  · funext a; apply Fin.ext
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 9 + 1 * k.val = k.val; omega
  · funext a; apply Fin.ext
    match a with
    | ⟨0, _⟩ => show win0_1.index t (0 : Fin 2) * 9 + 1 * k.val = k.val; omega
    | ⟨1, _⟩ => show win0_1.index t (1 : Fin 2) * 256 + 1 * (y 1).val = win0_3.index t (1 : Fin 2) * 256 + 1 * (y 1).val; omega
  · funext a; apply Fin.ext
    match a with
    | ⟨0, _⟩ => show win0_2.index t (0 : Fin 2) * 1 + 1 * 0 = 0; omega
    | ⟨1, _⟩ => show win0_2.index t (1 : Fin 2) * 256 + 1 * (y 1).val = win0_3.index t (1 : Fin 2) * 256 + 1 * (y 1).val; omega

/-- An entry of the result array lies in block t iff its row is among the block's 5000 rows. -/
theorem memBlk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v29).slice (win0_3.rect t)).set ↔ _
  rw [View.set_slice_whole, Rect.mem_set_unit]
  exact Iff.rfl

/-- Row r is in block r / 5000: the ten blocks tile the array. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, o0, o1⟩ := idx0 t
  refine ⟨t, flush0_3 t, ?_⟩
  rw [memBlk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- The result array after the region: the host's layer on the arrays the region found. -/
theorem final0 (c : Dev nD) :
    (dat0 V c).arrAt 3 cfg0.N = (embedG (V c main_arg0) (V c main_arg3) (V c main_v28)) :=
  (dat0 V c).arrAt_eq_of_cover 3 _ (fun t _ => flushed0 V c t) (cover0)

end Cert.KernelIdeal.Rows

end
-- ==== Proof.Region1.lean ====
/-
  Dense transform 1 of the node features: the [50000, 256] array is cut into ten blocks of 5000 rows, and
  block t of the result is the product of block t of the features with the whole [256, 256] weight matrix.  Hence
  the result array, once all ten blocks are written back, is the host's product of the two whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff1 : (![0, 0] : Fin 2 → Nat) = fun _ => 0 := funext fun a => by fin_cases a <;> rfl

/-- Block t of the features and of the result starts at row 5000·t; the weight matrix is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the host's product of the whole arrays. -/
theorem flushed1 (c : Dev nD) (t : Fin cfg1.N) :
    (dat1 V c).flushed 2 t = ((cfg1.win 2).blk t).view.read (Elt Ideal)
      (denseG (V c main_v29) (V c main_v31)) := by
  show (cfg1.win 2).cut (grid1.coords t) ((dat1 V c).after 2 t) = _
  rw [after1_2]
  unfold out1_2
  rw [View.canon_unit_zero zeroOff1]
  simp only [View.ld_unit_zero (S := S5000x256) zeroOff1, View.ld_unit_zero (S := S256x256) zeroOff1]
  obtain ⟨a0, a1, b0, b1, o0, o1⟩ := idx1 t
  funext y
  show k1_pay1 (iblk1 V c 0 t) (iblk1 V c 1 t) y
    = denseG (V c main_v29) (V c main_v31) (((cfg1.win 2).blk t).view.emb y)
  unfold k1_pay1 denseG
  dsimp only
  rw [shapeCast_self, shapeCast_self]
  refine Cert.Bridge.dot_block (φ₁ := .bf16) (φ₂ := .bf16) (φ₃ := .f32) (φ₄ := .f32) _ rfl _ rfl none none
    (V c main_v29) (V c main_v31) _ _
    (((cfg1.win 0).blk t).view.emb) (((cfg1.win 1).blk t).view.emb) (((cfg1.win 2).blk t).view.emb)
    (fun _ => rfl) (fun _ => rfl) (fun y k => ?_) (fun y k => ?_) y
  · funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 256 + 1 * k.val = k.val; omega
  · funext a; apply Fin.ext
    match a with
    | ⟨0, _⟩ => show win1_1.index t (0 : Fin 2) * 256 + 1 * k.val = k.val; omega
    | ⟨1, _⟩ => show win1_1.index t (1 : Fin 2) * 256 + 1 * (y 1).val = win1_2.index t (1 : Fin 2) * 256 + 1 * (y 1).val; omega

/-- An entry of the result array lies in block t iff its row is among the block's 5000 rows. -/
theorem memBlk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v32).slice (win1_2.rect t)).set ↔ _
  rw [View.set_slice_whole, Rect.mem_set_unit]
  exact Iff.rfl

/-- Row r is in block r / 5000: the ten blocks tile the array. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, o0, o1⟩ := idx1 t
  refine ⟨t, flush1_2 t, ?_⟩
  rw [memBlk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The result array after the region: the host's product of the arrays the region found. -/
theorem final1 (c : Dev nD) :
    (dat1 V c).arrAt 2 cfg1.N = denseG (V c main_v29) (V c main_v31) :=
  (dat1 V c).arrAt_eq_of_cover 2 _ (fun t _ => flushed1 V c t) (cover1)

end Cert.KernelIdeal.Rows

end
-- ==== Proof.Region2.lean ====
/-
  Combine step 2 of a graph layer: the aggregated messages, the scaled self-loop term (both [50000, 256]) and the
  one-row bias are cut into 25 blocks of 2000 rows; block t of the result is max(a + h + b, 0) entry by entry.  Once
  all blocks are written back the result array is the host's max((a + h) + b, 0) of the whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff2 : (![0, 0] : Fin 2 → Nat) = fun _ => 0 := funext fun a => by fin_cases a <;> rfl

/-- Block t of the two summands and of the result starts at row 2000·t; the bias row is one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the host's combine step on the whole arrays. -/
theorem flushed2 (c : Dev nD) (t : Fin cfg2.N) :
    (dat2 V c).flushed 3 t = ((cfg2.win 3).blk t).view.read (Elt Ideal)
      (combineG (V c main_v45) (V c main_v47) (V c main_v50)) := by
  show (cfg2.win 3).cut (grid2.coords t) ((dat2 V c).after 3 t) = _
  rw [after2_3]
  unfold out2_3
  rw [View.canon_unit_zero zeroOff2]
  simp only [View.ld_unit_zero (S := S2000x256) zeroOff2, View.ld_unit_zero (S := S1x256) zeroOff2]
  obtain ⟨a0, a1, b0, b1, c0, c1, o0, o1⟩ := idx2 t
  funext y
  show k2_pay1 (iblk2 V c 0 t) (iblk2 V c 1 t) (iblk2 V c 2 t) y
    = (combineG (V c main_v45) (V c main_v47) (V c main_v50)) (((cfg2.win 3).blk t).view.emb y)
  unfold k2_pay1 combineG
  dsimp only
  rw [shapeCast_self, shapeCast_self, shapeCast_self]
  refine Cert.Bridge.combine_block (V c main_v45) (V c main_v47) (V c main_v50) _ _ _
    (((cfg2.win 0).blk t).view.emb) (((cfg2.win 1).blk t).view.emb) (((cfg2.win 2).blk t).view.emb) (((cfg2.win 3).blk t).view.emb)
    (fun _ => rfl) (fun _ => rfl) (fun _ => rfl) (fun y => ?_) (fun y => ?_) (fun y => ?_) _ _ _ 0x00000000#32 y
  · funext a; apply Fin.ext
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 256 + 1 * (y 1).val = win2_3.index t (1 : Fin 2) * 256 + 1 * (y 1).val; omega
  · funext a; apply Fin.ext
    match a with
    | ⟨0, _⟩ => show win2_1.index t (0 : Fin 2) * 2000 + 1 * (y 0).val = win2_3.index t (0 : Fin 2) * 2000 + 1 * (y 0).val; omega
    | ⟨1, _⟩ => show win2_1.index t (1 : Fin 2) * 256 + 1 * (y 1).val = win2_3.index t (1 : Fin 2) * 256 + 1 * (y 1).val; omega
  · funext a; apply Fin.ext
    match a with
    | ⟨0, _⟩ => show win2_2.index t (0 : Fin 2) * 1 + 1 * 0 = 0; omega
    | ⟨1, _⟩ => show win2_2.index t (1 : Fin 2) * 256 + 1 * (y 1).val = win2_3.index t (1 : Fin 2) * 256 + 1 * (y 1).val; omega

/-- An entry of the result array lies in block t iff its row is among the block's 2000 rows. -/
theorem memBlk2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v51).slice (win2_3.rect t)).set ↔ _
  rw [View.set_slice_whole, Rect.mem_set_unit]
  exact Iff.rfl

/-- Row r is in block r / 2000: the 25 blocks tile the array. -/
theorem cover2 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, o0, o1⟩ := idx2 t
  refine ⟨t, flush2_3 t, ?_⟩
  rw [memBlk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- The result array after the region: the host's combine step on the arrays the region found. -/
theorem final2 (c : Dev nD) :
    (dat2 V c).arrAt 3 cfg2.N = (combineG (V c main_v45) (V c main_v47) (V c main_v50)) :=
  (dat2 V c).arrAt_eq_of_cover 3 _ (fun t _ => flushed2 V c t) (cover2)

end Cert.KernelIdeal.Rows

end
-- ==== Proof.Region3.lean ====
/-
  Dense transform 3 of the node features: the [50000, 256] array is cut into ten blocks of 5000 rows, and
  block t of the result is the product of block t of the features with the whole [256, 256] weight matrix.  Hence
  the result array, once all ten blocks are written back, is the host's product of the two whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff3 : (![0, 0] : Fin 2 → Nat) = fun _ => 0 := funext fun a => by fin_cases a <;> rfl

/-- Block t of the features and of the result starts at row 5000·t; the weight matrix is one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the host's product of the whole arrays. -/
theorem flushed3 (c : Dev nD) (t : Fin cfg3.N) :
    (dat3 V c).flushed 2 t = ((cfg3.win 2).blk t).view.read (Elt Ideal)
      (denseG (V c main_v51) (V c main_v53)) := by
  show (cfg3.win 2).cut (grid3.coords t) ((dat3 V c).after 2 t) = _
  rw [after3_2]
  unfold out3_2
  rw [View.canon_unit_zero zeroOff3]
  simp only [View.ld_unit_zero (S := S5000x256) zeroOff3, View.ld_unit_zero (S := S256x256) zeroOff3]
  obtain ⟨a0, a1, b0, b1, o0, o1⟩ := idx3 t
  funext y
  show k3_pay1 (iblk3 V c 0 t) (iblk3 V c 1 t) y
    = denseG (V c main_v51) (V c main_v53) (((cfg3.win 2).blk t).view.emb y)
  unfold k3_pay1 denseG
  dsimp only
  rw [shapeCast_self, shapeCast_self]
  refine Cert.Bridge.dot_block (φ₁ := .bf16) (φ₂ := .bf16) (φ₃ := .f32) (φ₄ := .f32) _ rfl _ rfl none none
    (V c main_v51) (V c main_v53) _ _
    (((cfg3.win 0).blk t).view.emb) (((cfg3.win 1).blk t).view.emb) (((cfg3.win 2).blk t).view.emb)
    (fun _ => rfl) (fun _ => rfl) (fun y k => ?_) (fun y k => ?_) y
  · funext a; apply Fin.ext
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 256 + 1 * k.val = k.val; omega
  · funext a; apply Fin.ext
    match a with
    | ⟨0, _⟩ => show win3_1.index t (0 : Fin 2) * 256 + 1 * k.val = k.val; omega
    | ⟨1, _⟩ => show win3_1.index t (1 : Fin 2) * 256 + 1 * (y 1).val = win3_2.index t (1 : Fin 2) * 256 + 1 * (y 1).val; omega

/-- An entry of the result array lies in block t iff its row is among the block's 5000 rows. -/
theorem memBlk3 (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v54).slice (win3_2.rect t)).set ↔ _
  rw [View.set_slice_whole, Rect.mem_set_unit]
  exact Iff.rfl

/-- Row r is in block r / 5000: the ten blocks tile the array. -/
theorem cover3 (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, o0, o1⟩ := idx3 t
  refine ⟨t, flush3_2 t, ?_⟩
  rw [memBlk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- The result array after the region: the host's product of the arrays the region found. -/
theorem final3 (c : Dev nD) :
    (dat3 V c).arrAt 2 cfg3.N = denseG (V c main_v51) (V c main_v53) :=
  (dat3 V c).arrAt_eq_of_cover 2 _ (fun t _ => flushed3 V c t) (cover3)

end Cert.KernelIdeal.Rows

end
-- ==== Proof.Region4.lean ====
/-
  Combine step 4 of a graph layer: the aggregated messages, the scaled self-loop term (both [50000, 256]) and the
  one-row bias are cut into 25 blocks of 2000 rows; block t of the result is max(a + h + b, 0) entry by entry.  Once
  all blocks are written back the result array is the host's max((a + h) + b, 0) of the whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff4 : (![0, 0] : Fin 2 → Nat) = fun _ => 0 := funext fun a => by fin_cases a <;> rfl

/-- Block t of the two summands and of the result starts at row 2000·t; the bias row is one block. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the host's combine step on the whole arrays. -/
theorem flushed4 (c : Dev nD) (t : Fin cfg4.N) :
    (dat4 V c).flushed 3 t = ((cfg4.win 3).blk t).view.read (Elt Ideal)
      (combineG (V c main_v67) (V c main_v69) (V c main_v72)) := by
  show (cfg4.win 3).cut (grid4.coords t) ((dat4 V c).after 3 t) = _
  rw [after4_3]
  unfold out4_3
  rw [View.canon_unit_zero zeroOff4]
  simp only [View.ld_unit_zero (S := S2000x256) zeroOff4, View.ld_unit_zero (S := S1x256) zeroOff4]
  obtain ⟨a0, a1, b0, b1, c0, c1, o0, o1⟩ := idx4 t
  funext y
  show k4_pay1 (iblk4 V c 0 t) (iblk4 V c 1 t) (iblk4 V c 2 t) y
    = (combineG (V c main_v67) (V c main_v69) (V c main_v72)) (((cfg4.win 3).blk t).view.emb y)
  unfold k4_pay1 combineG
  dsimp only
  rw [shapeCast_self, shapeCast_self, shapeCast_self]
  refine Cert.Bridge.combine_block (V c main_v67) (V c main_v69) (V c main_v72) _ _ _
    (((cfg4.win 0).blk t).view.emb) (((cfg4.win 1).blk t).view.emb) (((cfg4.win 2).blk t).view.emb) (((cfg4.win 3).blk t).view.emb)
    (fun _ => rfl) (fun _ => rfl) (fun _ => rfl) (fun y => ?_) (fun y => ?_) (fun y => ?_) _ _ _ 0x00000000#32 y
  · funext a; apply Fin.ext
    match a with
    | ⟨0, _⟩ => show win4_0.index t (0 : Fin 2) * 2000 + 1 * (y 0).val = win4_3.index t (0 : Fin 2) * 2000 + 1 * (y 0).val; omega
    | ⟨1, _⟩ => show win4_0.index t (1 : Fin 2) * 256 + 1 * (y 1).val = win4_3.index t (1 : Fin 2) * 256 + 1 * (y 1).val; omega
  · funext a; apply Fin.ext
    match a with
    | ⟨0, _⟩ => show win4_1.index t (0 : Fin 2) * 2000 + 1 * (y 0).val = win4_3.index t (0 : Fin 2) * 2000 + 1 * (y 0).val; omega
    | ⟨1, _⟩ => show win4_1.index t (1 : Fin 2) * 256 + 1 * (y 1).val = win4_3.index t (1 : Fin 2) * 256 + 1 * (y 1).val; omega
  · funext a; apply Fin.ext
    match a with
    | ⟨0, _⟩ => show win4_2.index t (0 : Fin 2) * 1 + 1 * 0 = 0; omega
    | ⟨1, _⟩ => show win4_2.index t (1 : Fin 2) * 256 + 1 * (y 1).val = win4_3.index t (1 : Fin 2) * 256 + 1 * (y 1).val; omega

/-- An entry of the result array lies in block t iff its row is among the block's 2000 rows. -/
theorem memBlk4 (t : Fin cfg4.N) (i : S50000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v73).slice (win4_3.rect t)).set ↔ _
  rw [View.set_slice_whole, Rect.mem_set_unit]
  exact Iff.rfl

/-- Row r is in block r / 2000: the 25 blocks tile the array. -/
theorem cover4 (i : S50000x256.Idx) :
    ∃ t : Fin cfg4.N, (cfg4.win 3).flush t = true ∧ i ∈ ((cfg4.win 3).blk t).view.set := by
  have hi0 : (i 0).val < 50000 := (i 0).isLt
  have hi1 : (i 1).val < 256 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, o0, o1⟩ := idx4 t
  refine ⟨t, flush4_3 t, ?_⟩
  rw [memBlk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- The result array after the region: the host's combine step on the arrays the region found. -/
theorem final4 (c : Dev nD) :
    (dat4 V c).arrAt 3 cfg4.N = (combineG (V c main_v67) (V c main_v69) (V c main_v72)) :=
  (dat4 V c).arrAt_eq_of_cover 3 _ (fun t _ => flushed4 V c t) (cover4)

end Cert.KernelIdeal.Rows

end
-- ==== Proof.Region5.lean ====
/-
  Dense transform 5 of the node features: the [50000, 256] array is cut into ten blocks of 5000 rows, and
  block t of the result is the product of block t of the features with the whole [256, 256] weight matrix.  Hence
  the result array, once all ten blocks are written back, is the host's product of the two whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff5 : (![0, 0] : Fin 2 → Nat) = fun _ => 0 := funext fun a => by fin_cases a <;> rfl

/-- Block t of the features and of the result starts at row 5000·t; the weight matrix is one block. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the host's product of the whole arrays. -/
theorem flushed5 (c : Dev nD) (t : Fin cfg5.N) :
    (dat5 V c).flushed 2 t = ((cfg5.win 2).blk t).view.read (Elt Ideal)
      (denseG (V c main_v73) (V c main_v75)) := by
  show (cfg5.win 2).cut (grid5.coords t) ((dat5 V c).after 2 t) = _
  rw [after5_2]
  unfold out5_2
  rw [View.canon_unit_zero zeroOff5]
  simp only [View.ld_unit_zero (S := S5000x256) zeroOff5, View.ld_unit_zero (S := S256x256) zeroOff5]
  obtain ⟨a0, a1, b0, b1, o0, o1⟩ := idx5 t
  funext y
  show k5_pay1 (iblk5 V c 0 t) (iblk5 V c 1 t) y
    = denseG (V c main_v73) (V c main_v75) (((cfg5.win 2).blk t).view.emb y)
  unfold k5_pay1 denseG
  dsimp only
  rw [shapeCast_self, shapeCast_self]
  refine Cert.Bridge.dot_block (φ₁ := .bf16) (φ₂ := .bf16) (φ₃ := .f32) (φ₄ := .f32) _ rfl _ rfl none none
    (V c main_v73) (V c main_v75) _ _
    (((cfg5.win 0).blk t).view.emb) (((cfg5.win 1).blk t).view.emb) (((cfg5.win 2).blk t).view.emb)
    (fun _ => rfl) (fun _ => rfl) (fun y k => ?_) (fun y k => ?_) y
  · funext a; apply Fin.ext
    match a with
    | ⟨0, _⟩ => show win5_0.index t (0 : Fin 2) * 5000 + 1 * (y 0).val = win5_2.index t (0 : Fin 2) * 5000 + 1 * (y 0).val; omega
    | ⟨1, _⟩ => show win5_0.index t (1 : Fin 2) * 256 + 1 * k.val = k.val; omega
  · funext a; apply Fin.ext
    match a with
    | ⟨0, _⟩ => show win5_1.index t (0 : Fin 2) * 256 + 1 * k.val = k.val; omega
    | ⟨1, _⟩ => show win5_1.index t (1 : Fin 2) * 256 + 1 * (y 1).val = win5_2.index t (1 : Fin 2) * 256 + 1 * (y 1).val; omega

/-- An entry of the result array lies in block t iff its row is among the block's 5000 rows. -/
theorem memBlk5 (t : Fin cfg5.N) (i : S50000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v76).slice (win5_2.rect t)).set ↔ _
  rw [View.set_slice_whole, Rect.mem_set_unit]
  exact Iff.rfl

/-- Row r is in block r / 5000: the ten blocks tile the array. -/
theorem cover5 (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, o0, o1⟩ := idx5 t
  refine ⟨t, flush5_2 t, ?_⟩
  rw [memBlk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 256 ≤ (i 1).val ∧ (i 1).val < win5_2.index t (1 : Fin 2) * 256 + 256; omega

/-- The result array after the region: the host's product of the arrays the region found. -/
theorem final5 (c : Dev nD) :
    (dat5 V c).arrAt 2 cfg5.N = denseG (V c main_v73) (V c main_v75) :=
  (dat5 V c).arrAt_eq_of_cover 2 _ (fun t _ => flushed5 V c t) (cover5)

end Cert.KernelIdeal.Rows

end
-- ==== Proof.Region6.lean ====
/-
  Combine step 6 of a graph layer: the aggregated messages, the scaled self-loop term (both [50000, 256]) and the
  one-row bias are cut into 25 blocks of 2000 rows; block t of the result is max(a + h + b, 0) entry by entry.  Once
  all blocks are written back the result array is the host's max((a + h) + b, 0) of the whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff6 : (![0, 0] : Fin 2 → Nat) = fun _ => 0 := funext fun a => by fin_cases a <;> rfl

/-- Block t of the two summands and of the result starts at row 2000·t; the bias row is one block. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the host's combine step on the whole arrays. -/
theorem flushed6 (c : Dev nD) (t : Fin cfg6.N) :
    (dat6 V c).flushed 3 t = ((cfg6.win 3).blk t).view.read (Elt Ideal)
      (combineG (V c main_v89) (V c main_v91) (V c main_v94)) := by
  show (cfg6.win 3).cut (grid6.coords t) ((dat6 V c).after 3 t) = _
  rw [after6_3]
  unfold out6_3
  rw [View.canon_unit_zero zeroOff6]
  simp only [View.ld_unit_zero (S := S2000x256) zeroOff6, View.ld_unit_zero (S := S1x256) zeroOff6]
  obtain ⟨a0, a1, b0, b1, c0, c1, o0, o1⟩ := idx6 t
  funext y
  show k6_pay1 (iblk6 V c 0 t) (iblk6 V c 1 t) (iblk6 V c 2 t) y
    = (combineG (V c main_v89) (V c main_v91) (V c main_v94)) (((cfg6.win 3).blk t).view.emb y)
  unfold k6_pay1 combineG
  dsimp only
  rw [shapeCast_self, shapeCast_self, shapeCast_self]
  refine Cert.Bridge.combine_block (V c main_v89) (V c main_v91) (V c main_v94) _ _ _
    (((cfg6.win 0).blk t).view.emb) (((cfg6.win 1).blk t).view.emb) (((cfg6.win 2).blk t).view.emb) (((cfg6.win 3).blk t).view.emb)
    (fun _ => rfl) (fun _ => rfl) (fun _ => rfl) (fun y => ?_) (fun y => ?_) (fun y => ?_) _ _ _ 0x00000000#32 y
  · funext a; apply Fin.ext
    match a with
    | ⟨0, _⟩ => show win6_0.index t (0 : Fin 2) * 2000 + 1 * (y 0).val = win6_3.index t (0 : Fin 2) * 2000 + 1 * (y 0).val; omega
    | ⟨1, _⟩ => show win6_0.index t (1 : Fin 2) * 256 + 1 * (y 1).val = win6_3.index t (1 : Fin 2) * 256 + 1 * (y 1).val; omega
  · funext a; apply Fin.ext
    match a with
    | ⟨0, _⟩ => show win6_1.index t (0 : Fin 2) * 2000 + 1 * (y 0).val = win6_3.index t (0 : Fin 2) * 2000 + 1 * (y 0).val; omega
    | ⟨1, _⟩ => show win6_1.index t (1 : Fin 2) * 256 + 1 * (y 1).val = win6_3.index t (1 : Fin 2) * 256 + 1 * (y 1).val; omega
  · funext a; apply Fin.ext
    match a with
    | ⟨0, _⟩ => show win6_2.index t (0 : Fin 2) * 1 + 1 * 0 = 0; omega
    | ⟨1, _⟩ => show win6_2.index t (1 : Fin 2) * 256 + 1 * (y 1).val = win6_3.index t (1 : Fin 2) * 256 + 1 * (y 1).val; omega

/-- An entry of the result array lies in block t iff its row is among the block's 2000 rows. -/
theorem memBlk6 (t : Fin cfg6.N) (i : S50000x256.Idx) :
    i ∈ ((cfg6.win 3).blk t).view.set ↔ ∀ a : Fin 2, win6_3.index t a * S2000x256.size a ≤ (i a).val ∧ (i a).val < win6_3.index t a * S2000x256.size a + S2000x256.size a := by
  show i ∈ ((View.whole main_v95).slice (win6_3.rect t)).set ↔ _
  rw [View.set_slice_whole, Rect.mem_set_unit]
  exact Iff.rfl

/-- Row r is in block r / 2000: the 25 blocks tile the array. -/
theorem cover6 (i : S50000x256.Idx) :
    ∃ t : Fin cfg6.N, (cfg6.win 3).flush t = true ∧ i ∈ ((cfg6.win 3).blk t).view.set := by
  have hi0 : (i 0).val < 50000 := (i 0).isLt
  have hi1 : (i 1).val < 256 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, -, -, o0, o1⟩ := idx6 t
  refine ⟨t, flush6_3 t, ?_⟩
  rw [memBlk6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 256 ≤ (i 1).val ∧ (i 1).val < win6_3.index t (1 : Fin 2) * 256 + 256; omega

/-- The result array after the region: the host's combine step on the arrays the region found. -/
theorem final6 (c : Dev nD) :
    (dat6 V c).arrAt 3 cfg6.N = (combineG (V c main_v89) (V c main_v91) (V c main_v94)) :=
  (dat6 V c).arrAt_eq_of_cover 3 _ (fun t _ => flushed6 V c t) (cover6)

end Cert.KernelIdeal.Rows

end
-- ==== Proof.Region7.lean ====
/-
  Dense transform 7 of the node features: the [50000, 256] array is cut into ten blocks of 5000 rows, and
  block t of the result is the product of block t of the features with the whole [256, 256] weight matrix.  Hence
  the result array, once all ten blocks are written back, is the host's product of the two whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff7 : (![0, 0] : Fin 2 → Nat) = fun _ => 0 := funext fun a => by fin_cases a <;> rfl

/-- Block t of the features and of the result starts at row 5000·t; the weight matrix is one block. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the host's product of the whole arrays. -/
theorem flushed7 (c : Dev nD) (t : Fin cfg7.N) :
    (dat7 V c).flushed 2 t = ((cfg7.win 2).blk t).view.read (Elt Ideal)
      (denseG (V c main_v95) (V c main_v97)) := by
  show (cfg7.win 2).cut (grid7.coords t) ((dat7 V c).after 2 t) = _
  rw [after7_2]
  unfold out7_2
  rw [View.canon_unit_zero zeroOff7]
  simp only [View.ld_unit_zero (S := S5000x256) zeroOff7, View.ld_unit_zero (S := S256x256) zeroOff7]
  obtain ⟨a0, a1, b0, b1, o0, o1⟩ := idx7 t
  funext y
  show k7_pay1 (iblk7 V c 0 t) (iblk7 V c 1 t) y
    = denseG (V c main_v95) (V c main_v97) (((cfg7.win 2).blk t).view.emb y)
  unfold k7_pay1 denseG
  dsimp only
  rw [shapeCast_self, shapeCast_self]
  refine Cert.Bridge.dot_block (φ₁ := .bf16) (φ₂ := .bf16) (φ₃ := .f32) (φ₄ := .f32) _ rfl _ rfl none none
    (V c main_v95) (V c main_v97) _ _
    (((cfg7.win 0).blk t).view.emb) (((cfg7.win 1).blk t).view.emb) (((cfg7.win 2).blk t).view.emb)
    (fun _ => rfl) (fun _ => rfl) (fun y k => ?_) (fun y k => ?_) y
  · funext a; apply Fin.ext
    match a with
    | ⟨0, _⟩ => show win7_0.index t (0 : Fin 2) * 5000 + 1 * (y 0).val = win7_2.index t (0 : Fin 2) * 5000 + 1 * (y 0).val; omega
    | ⟨1, _⟩ => show win7_0.index t (1 : Fin 2) * 256 + 1 * k.val = k.val; omega
  · funext a; apply Fin.ext
    match a with
    | ⟨0, _⟩ => show win7_1.index t (0 : Fin 2) * 256 + 1 * k.val = k.val; omega
    | ⟨1, _⟩ => show win7_1.index t (1 : Fin 2) * 256 + 1 * (y 1).val = win7_2.index t (1 : Fin 2) * 256 + 1 * (y 1).val; omega

/-- An entry of the result array lies in block t iff its row is among the block's 5000 rows. -/
theorem memBlk7 (t : Fin cfg7.N) (i : S50000x256.Idx) :
    i ∈ ((cfg7.win 2).blk t).view.set ↔ ∀ a : Fin 2, win7_2.index t a * S5000x256.size a ≤ (i a).val ∧ (i a).val < win7_2.index t a * S5000x256.size a + S5000x256.size a := by
  show i ∈ ((View.whole main_v98).slice (win7_2.rect t)).set ↔ _
  rw [View.set_slice_whole, Rect.mem_set_unit]
  exact Iff.rfl

/-- Row r is in block r / 5000: the ten blocks tile the array. -/
theorem cover7 (i : S50000x256.Idx) :
    ∃ t : Fin cfg7.N, (cfg7.win 2).flush t = true ∧ i ∈ ((cfg7.win 2).blk t).view.set := by
  have hi0 : (i 0).val < 50000 := (i 0).isLt
  have hi1 : (i 1).val < 256 := (i 1).isLt
  have hN : cfg7.N = 10 := N_7
  obtain ⟨t, ht⟩ : ∃ t : Fin cfg7.N, t.val = (i 0).val / 5000 := ⟨⟨(i 0).val / 5000, by rw [hN]; omega⟩, rfl⟩
  obtain ⟨-, -, -, -, o0, o1⟩ := idx7 t
  refine ⟨t, flush7_2 t, ?_⟩
  rw [memBlk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 256 ≤ (i 1).val ∧ (i 1).val < win7_2.index t (1 : Fin 2) * 256 + 256; omega

/-- The result array after the region: the host's product of the arrays the region found. -/
theorem final7 (c : Dev nD) :
    (dat7 V c).arrAt 2 cfg7.N = denseG (V c main_v95) (V c main_v97) :=
  (dat7 V c).arrAt_eq_of_cover 2 _ (fun t _ => flushed7 V c t) (cover7)

end Cert.KernelIdeal.Rows

end
-- ==== Proof.Region8.lean ====
/-
  Combine step 8 of a graph layer: the aggregated messages, the scaled self-loop term (both [50000, 256]) and the
  one-row bias are cut into 25 blocks of 2000 rows; block t of the result is max(a + h + b, 0) entry by entry.  Once
  all blocks are written back the result array is the host's max((a + h) + b, 0) of the whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff8 : (![0, 0] : Fin 2 → Nat) = fun _ => 0 := funext fun a => by fin_cases a <;> rfl

/-- Block t of the two summands and of the result starts at row 2000·t; the bias row is one block. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point t writes back is block t of the host's combine step on the whole arrays. -/
theorem flushed8 (c : Dev nD) (t : Fin cfg8.N) :
    (dat8 V c).flushed 3 t = ((cfg8.win 3).blk t).view.read (Elt Ideal)
      (combineG (V c main_v111) (V c main_v113) (V c main_v116)) := by
  show (cfg8.win 3).cut (grid8.coords t) ((dat8 V c).after 3 t) = _
  rw [after8_3]
  unfold out8_3
  rw [View.canon_unit_zero zeroOff8]
  simp only [View.ld_unit_zero (S := S2000x256) zeroOff8, View.ld_unit_zero (S := S1x256) zeroOff8]
  obtain ⟨a0, a1, b0, b1, c0, c1, o0, o1⟩ := idx8 t
  funext y
  show k8_pay1 (iblk8 V c 0 t) (iblk8 V c 1 t) (iblk8 V c 2 t) y
    = (combineG (V c main_v111) (V c main_v113) (V c main_v116)) (((cfg8.win 3).blk t).view.emb y)
  unfold k8_pay1 combineG
  dsimp only
  rw [shapeCast_self, shapeCast_self, shapeCast_self]
  refine Cert.Bridge.combine_block (V c main_v111) (V c main_v113) (V c main_v116) _ _ _
    (((cfg8.win 0).blk t).view.emb) (((cfg8.win 1).blk t).view.emb) (((cfg8.win 2).blk t).view.emb) (((cfg8.win 3).blk t).view.emb)
    (fun _ => rfl) (fun _ => rfl) (fun _ => rfl) (fun y => ?_) (fun y => ?_) (fun y => ?_) _ _ _ 0x00000000#32 y
  · funext a; apply Fin.ext
    match a with
    | ⟨0, _⟩ => show win8_0.index t (0 : Fin 2) * 2000 + 1 * (y 0).val = win8_3.index t (0 : Fin 2) * 2000 + 1 * (y 0).val; omega
    | ⟨1, _⟩ => show win8_0.index t (1 : Fin 2) * 256 + 1 * (y 1).val = win8_3.index t (1 : Fin 2) * 256 + 1 * (y 1).val; omega
  · funext a; apply Fin.ext
    match a with
    | ⟨0, _⟩ => show win8_1.index t (0 : Fin 2) * 2000 + 1 * (y 0).val = win8_3.index t (0 : Fin 2) * 2000 + 1 * (y 0).val; omega
    | ⟨1, _⟩ => show win8_1.index t (1 : Fin 2) * 256 + 1 * (y 1).val = win8_3.index t (1 : Fin 2) * 256 + 1 * (y 1).val; omega
  · funext a; apply Fin.ext
    match a with
    | ⟨0, _⟩ => show win8_2.index t (0 : Fin 2) * 1 + 1 * 0 = 0; omega
    | ⟨1, _⟩ => show win8_2.index t (1 : Fin 2) * 256 + 1 * (y 1).val = win8_3.index t (1 : Fin 2) * 256 + 1 * (y 1).val; omega

/-- An entry of the result array lies in block t iff its row is among the block's 2000 rows. -/
theorem memBlk8 (t : Fin cfg8.N) (i : S50000x256.Idx) :
    i ∈ ((cfg8.win 3).blk t).view.set ↔ ∀ a : Fin 2, win8_3.index t a * S2000x256.size a ≤ (i a).val ∧ (i a).val < win8_3.index t a * S2000x256.size a + S2000x256.size a := by
  show i ∈ ((View.whole main_v117).slice (win8_3.rect t)).set ↔ _
  rw [View.set_slice_whole, Rect.mem_set_unit]
  exact Iff.rfl

/-- Row r is in block r / 2000: the 25 blocks tile the array. -/
theorem cover8 (i : S50000x256.Idx) :
    ∃ t : Fin cfg8.N, (cfg8.win 3).flush t = true ∧ i ∈ ((cfg8.win 3).blk t).view.set := by
  have hi0 : (i 0).val < 50000 := (i 0).isLt
  have hi1 : (i 1).val < 256 := (i 1).isLt
  have hN : cfg8.N = 25 := N_8
  obtain ⟨t, ht⟩ : ∃ t : Fin cfg8.N, t.val = (i 0).val / 2000 := ⟨⟨(i 0).val / 2000, by rw [hN]; omega⟩, rfl⟩
  obtain ⟨-, -, -, -, -, -, o0, o1⟩ := idx8 t
  refine ⟨t, flush8_3 t, ?_⟩
  rw [memBlk8]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 256 ≤ (i 1).val ∧ (i 1).val < win8_3.index t (1 : Fin 2) * 256 + 256; omega

/-- The result array after the region: the host's combine step on the arrays the region found. -/
theorem final8 (c : Dev nD) :
    (dat8 V c).arrAt 3 cfg8.N = (combineG (V c main_v111) (V c main_v113) (V c main_v116)) :=
  (dat8 V c).arrAt_eq_of_cover 3 _ (fun t _ => flushed8 V c t) (cover8)

end Cert.KernelIdeal.Rows

end
-- ==== Proof.Region9.lean ====
/-
  The output layer: one grid point, every operand one whole block.  The result is the [512, 256] pooled features
  times the [256, 1] weight column plus the one-entry bias, which is the host's product-plus-bias of the whole arrays.
-/
import proofs.«109019_j22548578304211_1_alg».proof.Proof.Gen.KernelIdeal.Frame
import proofs.«109019_j22548578304211_1_alg».proof.Proof.Gen.ReferenceIdeal
import proofs.«109019_j22548578304211_1_alg».proof.Proof.LibRowBlocks
import proofs.«109019_j22548578304211_1_alg».proof.Proof.Layers

set_option maxRecDepth 16384

noncomputable section

namespace Cert.KernelIdeal.Rows

open Cert.KernelIdeal Cert.KernelIdeal.Gen Idealize.ShloMosaic Idealize.ShloMosaic.TcCoe Idealize.ShloMosaic.ValueIdx
open Idealize.ShloMosaic.Pipeline (Dat Cfg Window)
open Cert.Lib.PlainDot (rowIdx colIdx)

variable (V : (c : Dev nD) → (b : Ref sig .tc) → Buf (Elt Ideal) ((c : Thread nD τ).loc b))

theorem zeroOff9 : (![0, 0] : Fin 2 → Nat) = fun _ => 0 := funext fun a => by fin_cases a <;> rfl

/-- Every operand's one block sits at the origin. -/
theorem idx9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- What the one point writes back is the host's layer on the whole arrays. -/
theorem flushed9 (c : Dev nD) (t : Fin cfg9.N) :
    (dat9 V c).flushed 3 t = ((cfg9.win 3).blk t).view.read (Elt Ideal)
      (outputG (V c main_v129) (V c main_arg7) (V c main_v130)) := by
  show (cfg9.win 3).cut (grid9.coords t) ((dat9 V c).after 3 t) = _
  rw [after9_3]
  unfold out9_3
  rw [View.canon_unit_zero zeroOff9]
  simp only [View.ld_unit_zero (S := S512x256) zeroOff9, View.ld_unit_zero (S := S256x1) zeroOff9, View.ld_unit_zero (S := S1x1) zeroOff9]
  obtain ⟨a0, a1, b0, b1, c0, c1, o0, o1⟩ := idx9 t
  funext y
  show k9_pay1 (iblk9 V c 0 t) (iblk9 V c 1 t) (iblk9 V c 2 t) y
    = (outputG (V c main_v129) (V c main_arg7) (V c main_v130)) (((cfg9.win 3).blk t).view.emb y)
  unfold k9_pay1 outputG
  dsimp only
  rw [shapeCast_self, shapeCast_self]
  refine Cert.Bridge.output_block .bf16 .bf16 _ rfl _ rfl none none
    (V c main_v129) (V c main_arg7) (V c main_v130) _ _ _
    (((cfg9.win 0).blk t).view.emb) (((cfg9.win 1).blk t).view.emb) (((cfg9.win 2).blk t).view.emb) (((cfg9.win 3).blk t).view.emb)
    (fun _ => rfl) (fun _ => rfl) (fun _ => rfl) (fun y k => ?_) (fun y k => ?_) (fun y => ?_) _ _ y
  · funext a; apply Fin.ext
    match a with
    | ⟨0, _⟩ => show win9_0.index t (0 : Fin 2) * 512 + 1 * (y 0).val = win9_3.index t (0 : Fin 2) * 512 + 1 * (y 0).val; omega
    | ⟨1, _⟩ => show win9_0.index t (1 : Fin 2) * 256 + 1 * k.val = k.val; omega
  · funext a; apply Fin.ext
    match a with
    | ⟨0, _⟩ => show win9_1.index t (0 : Fin 2) * 256 + 1 * k.val = k.val; omega
    | ⟨1, _⟩ => show win9_1.index t (1 : Fin 2) * 1 + 1 * (y 1).val = win9_3.index t (1 : Fin 2) * 1 + 1 * (y 1).val; omega
  · funext a; apply Fin.ext
    match a with
    | ⟨0, _⟩ => show win9_2.index t (0 : Fin 2) * 1 + 1 * 0 = 0; omega
    | ⟨1, _⟩ => show win9_2.index t (1 : Fin 2) * 1 + 1 * (y 1).val = win9_3.index t (1 : Fin 2) * 1 + 1 * (y 1).val; omega

/-- An entry of the result array lies in the one block iff it is inside the array. -/
theorem memBlk9 (t : Fin cfg9.N) (i : S512x1.Idx) :
    i ∈ ((cfg9.win 3).blk t).view.set ↔ ∀ a : Fin 2, win9_3.index t a * S512x1.size a ≤ (i a).val ∧ (i a).val < win9_3.index t a * S512x1.size a + S512x1.size a := by
  show i ∈ ((View.whole main_v131).slice (win9_3.rect t)).set ↔ _
  rw [View.set_slice_whole, Rect.mem_set_unit]
  exact Iff.rfl

/-- The one block is the whole array. -/
theorem cover9 (i : S512x1.Idx) :
    ∃ t : Fin cfg9.N, (cfg9.win 3).flush t = true ∧ i ∈ ((cfg9.win 3).blk t).view.set := by
  have hi0 : (i 0).val < 512 := (i 0).isLt
  have hi1 : (i 1).val < 1 := (i 1).isLt
  have hN : cfg9.N = 1 := N_9
  obtain ⟨t, ht⟩ : ∃ t : Fin cfg9.N, t.val = 0 := ⟨⟨0, by rw [hN]; omega⟩, rfl⟩
  obtain ⟨-, -, -, -, -, -, o0, o1⟩ := idx9 t
  refine ⟨t, flush9_3 t, ?_⟩
  rw [memBlk9]
  intro a
  match a with
  | ⟨0, _⟩ => show win9_3.index t (0 : Fin 2) * 512 ≤ (i 0).val ∧ (i 0).val < win9_3.index t (0 : Fin 2) * 512 + 512; omega
  | ⟨1, _⟩ => show win9_3.index t (1 : Fin 2) * 1 ≤ (i 1).val ∧ (i 1).val < win9_3.index t (1 : Fin 2) * 1 + 1; omega

/-- The result array after the region: the host's layer on the arrays the region found. -/
theorem final9 (c : Dev nD) :
    (dat9 V c).arrAt 3 cfg9.N = (outputG (V c main_v129) (V c main_arg7) (V c main_v130)) :=
  (dat9 V c).arrAt_eq_of_cover 3 _ (fun t _ => flushed9 V c t) (cover9)

end Cert.KernelIdeal.Rows

end
-- ==== Proof.Host0.lean ====
/-
  The host stretch before the first region, read at the five results later code uses: the two edge-index vectors (row 0
  and row 1 of the [2, E] index matrix as vectors), the per-edge coefficient dinv[src]·dinv[dst], the per-node
  self-loop coefficient dinv² as a one-column matrix, and the embedding bias as a one-row matrix.  Each is the
  reference's operation chain on the same argument.
-/
import proofs.«109019_j22548578304211_1_alg».proof.Proof.Gen.KernelIdeal.Launch
import proofs.«109019_j22548578304211_1_alg».proof.Proof.Gen.ReferenceIdeal.Read
import proofs.«109019_j22548578304211_1_alg».proof.Proof.LibRowBlocks
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.StableHlo

variable (X : Valuation τ sig (Elt Ideal))

/-- The source-node index of each edge. -/
theorem host0_src (x1 : (⟨Cert.ReferenceIdeal.S2x800000, .i32⟩ : BufTy).Contents (Elt Ideal)) (h : X (Proc.devRef .tc main_arg1) = x1) :
    StableHlo.after hostOps0 X (Proc.devRef .tc main_v1) = Cert.ReferenceIdeal.Read.val_main_v1 (F := Ideal) x1 := by
  after_results_simp
  rw [h]
  rfl

/-- The destination-node index of each edge. -/
theorem host0_dst (x1 : (⟨Cert.ReferenceIdeal.S2x800000, .i32⟩ : BufTy).Contents (Elt Ideal)) (h : X (Proc.devRef .tc main_arg1) = x1) :
    StableHlo.after hostOps0 X (Proc.devRef .tc main_v3) = Cert.ReferenceIdeal.Read.val_main_v3 (F := Ideal) x1 := by
  after_results_simp
  rw [h]
  rfl

/-- The per-edge coefficient. -/
theorem host0_edgeCoef (x1 : (⟨Cert.ReferenceIdeal.S2x800000, .i32⟩ : BufTy).Contents (Elt Ideal)) (h : X (Proc.devRef .tc main_arg1) = x1) :
    StableHlo.after hostOps0 X (Proc.devRef .tc main_v25) = Cert.ReferenceIdeal.Read.val_main_v25 (F := Ideal) x1 := by
  after_results_simp
  rw [h]
  rfl

/-- The per-node self-loop coefficient, one column. -/
theorem host0_selfCoef (x1 : (⟨Cert.ReferenceIdeal.S2x800000, .i32⟩ : BufTy).Contents (Elt Ideal)) (h : X (Proc.devRef .tc main_arg1) = x1) :
    StableHlo.after hostOps0 X (Proc.devRef .tc main_v27) = Cert.ReferenceIdeal.Read.val_main_v27 (F := Ideal) x1 := by
  after_results_simp
  rw [h]
  rfl

/-- The embedding bias as a one-row matrix: the bias vector reshaped to one row, which is the reference's vector given a
    leading unit axis. -/
theorem host0_bias (x4 : (⟨Cert.ReferenceIdeal.S256, .f32⟩ : BufTy).Contents (Elt Ideal)) (h : X (Proc.devRef .tc main_arg4) = x4) :
    StableHlo.after hostOps0 X (Proc.devRef .tc main_v28) = Cert.ReferenceIdeal.Read.val_main_v29 (F := Ideal) x4 := by
  after_results_simp
  rw [h]
  exact Cert.Bridge.reshapeRow_eq (C := 256) (φ := .f32) _ _ _

end Cert.KernelIdeal.Rows

end
-- ==== Proof.HostWeights.lean ====
/-
  The short host stretch before each layer's linear transform: that layer's [256, 256] weight matrix sliced out of the
  [4, 256, 256] weight table and reshaped, as the reference slices and reshapes it.
-/
import proofs.«109019_j22548578304211_1_alg».proof.Proof.Gen.KernelIdeal.Launch
import proofs.«109019_j22548578304211_1_alg».proof.Proof.Gen.ReferenceIdeal.Read
import proofs.«109019_j22548578304211_1_alg».proof.Proof.LibRowBlocks
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.StableHlo

variable (X : Valuation τ sig (Elt Ideal))

/-- The weight matrix of the layer whose transform is region 1. -/
theorem host1_weights (x5 : (⟨Cert.ReferenceIdeal.S4x256x256, .f32⟩ : BufTy).Contents (Elt Ideal)) (h : X (Proc.devRef .tc main_arg5) = x5) :
    StableHlo.after hostOps1 X (Proc.devRef .tc main_v31) = Cert.ReferenceIdeal.Read.val_main_v34 (F := Ideal) x5 := by
  after_results
  rw [h]
  rfl

/-- The weight matrix of the layer whose transform is region 3. -/
theorem host3_weights (x5 : (⟨Cert.ReferenceIdeal.S4x256x256, .f32⟩ : BufTy).Contents (Elt Ideal)) (h : X (Proc.devRef .tc main_arg5) = x5) :
    StableHlo.after hostOps3 X (Proc.devRef .tc main_v53) = Cert.ReferenceIdeal.Read.val_main_v59 (F := Ideal) x5 := by
  after_results
  rw [h]
  rfl

/-- The weight matrix of the layer whose transform is region 5. -/
theorem host5_weights (x5 : (⟨Cert.ReferenceIdeal.S4x256x256, .f32⟩ : BufTy).Contents (Elt Ideal)) (h : X (Proc.devRef .tc main_arg5) = x5) :
    StableHlo.after hostOps5 X (Proc.devRef .tc main_v75) = Cert.ReferenceIdeal.Read.val_main_v84 (F := Ideal) x5 := by
  after_results
  rw [h]
  rfl

/-- The weight matrix of the layer whose transform is region 7. -/
theorem host7_weights (x5 : (⟨Cert.ReferenceIdeal.S4x256x256, .f32⟩ : BufTy).Contents (Elt Ideal)) (h : X (Proc.devRef .tc main_arg5) = x5) :
    StableHlo.after hostOps7 X (Proc.devRef .tc main_v97) = Cert.ReferenceIdeal.Read.val_main_v109 (F := Ideal) x5 := by
  after_results
  rw [h]
  rfl

end Cert.KernelIdeal.Rows

end
-- ==== Proof.Host2.lean ====
/-
  The host stretch between a layer's linear transform and its combine step, read at its three results: the
  aggregation (each edge's source row of the transformed features scaled by the edge coefficient, summed into the
  edge's destination row), the self-loop term (the transformed features scaled per node) and the layer's bias as a
  one-row matrix.  Each is the reference's operation chain applied to the same inputs.
-/
import proofs.«109019_j22548578304211_1_alg».proof.Proof.Gen.KernelIdeal.Launch
import proofs.«109019_j22548578304211_1_alg».proof.Proof.Gen.ReferenceIdeal.Read
import proofs.«109019_j22548578304211_1_alg».proof.Proof.LibRowBlocks
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.StableHlo

variable (X : Valuation τ sig (Elt Ideal))

set_option maxHeartbeats 4000000 in
/-- The aggregated messages. -/
theorem host2_agg (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal))
    (hh : X (Proc.devRef .tc main_v32) = Cert.ReferenceIdeal.Read.val_main_v35 (F := Ideal) x0 x3 x4 x5) (h1 : X (Proc.devRef .tc main_v1) = Cert.ReferenceIdeal.Read.val_main_v1 (F := Ideal) x1)
    (h3 : X (Proc.devRef .tc main_v3) = Cert.ReferenceIdeal.Read.val_main_v3 (F := Ideal) x1) (h25 : X (Proc.devRef .tc main_v25) = Cert.ReferenceIdeal.Read.val_main_v25 (F := Ideal) x1) :
    StableHlo.after hostOps2 X (Proc.devRef .tc main_v45) = Cert.ReferenceIdeal.Read.val_main_v48 (F := Ideal) x0 x1 x3 x4 x5 := by
  after_results_simp
  rw [hh, h1, h3, h25]
  rfl

/-- The self-loop term. -/
theorem host2_self (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal))
    (hh : X (Proc.devRef .tc main_v32) = Cert.ReferenceIdeal.Read.val_main_v35 (F := Ideal) x0 x3 x4 x5) (h27 : X (Proc.devRef .tc main_v27) = Cert.ReferenceIdeal.Read.val_main_v27 (F := Ideal) x1) :
    StableHlo.after hostOps2 X (Proc.devRef .tc main_v47) = Cert.ReferenceIdeal.Read.val_main_v50 (F := Ideal) x0 x1 x3 x4 x5 := by
  after_results_simp
  rw [hh, h27]
  rfl

/-- The layer's bias as a one-row matrix: a slice of the bias table reshaped to a vector and then to one row, which is
    the reference's slice reshaped to a vector and given a leading unit axis. -/
theorem host2_bias (x6 : (⟨Cert.ReferenceIdeal.S4x256, .f32⟩ : BufTy).Contents (Elt Ideal)) (h6 : X (Proc.devRef .tc main_arg6) = x6) :
    StableHlo.after hostOps2 X (Proc.devRef .tc main_v50) = Cert.ReferenceIdeal.Read.val_main_v54 (F := Ideal) x6 := by
  after_results_simp
  rw [h6]
  exact Cert.Bridge.reshapeRow_eq (C := 256) (φ := .f32) _ _ _

end Cert.KernelIdeal.Rows

end
-- ==== Proof.Host4.lean ====
/-
  The host stretch between a layer's linear transform and its combine step, read at its three results: the
  aggregation (each edge's source row of the transformed features scaled by the edge coefficient, summed into the
  edge's destination row), the self-loop term (the transformed features scaled per node) and the layer's bias as a
  one-row matrix.  Each is the reference's operation chain applied to the same inputs.
-/
import proofs.«109019_j22548578304211_1_alg».proof.Proof.Gen.KernelIdeal.Launch
import proofs.«109019_j22548578304211_1_alg».proof.Proof.Gen.ReferenceIdeal.Read
import proofs.«109019_j22548578304211_1_alg».proof.Proof.LibRowBlocks
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.StableHlo

variable (X : Valuation τ sig (Elt Ideal))

set_option maxHeartbeats 4000000 in
/-- The aggregated messages. -/
theorem host4_agg (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal)) (x6 : (⟨Cert.ReferenceIdeal.S4x256, .f32⟩ : BufTy).Contents (Elt Ideal))
    (hh : X (Proc.devRef .tc main_v54) = Cert.ReferenceIdeal.Read.val_main_v60 (F := Ideal) x0 x1 x3 x4 x5 x6) (h1 : X (Proc.devRef .tc main_v1) = Cert.ReferenceIdeal.Read.val_main_v1 (F := Ideal) x1)
    (h3 : X (Proc.devRef .tc main_v3) = Cert.ReferenceIdeal.Read.val_main_v3 (F := Ideal) x1) (h25 : X (Proc.devRef .tc main_v25) = Cert.ReferenceIdeal.Read.val_main_v25 (F := Ideal) x1) :
    StableHlo.after hostOps4 X (Proc.devRef .tc main_v67) = Cert.ReferenceIdeal.Read.val_main_v73 (F := Ideal) x0 x1 x3 x4 x5 x6 := by
  after_results_simp
  rw [hh, h1, h3, h25]
  rfl

/-- The self-loop term. -/
theorem host4_self (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal)) (x6 : (⟨Cert.ReferenceIdeal.S4x256, .f32⟩ : BufTy).Contents (Elt Ideal))
    (hh : X (Proc.devRef .tc main_v54) = Cert.ReferenceIdeal.Read.val_main_v60 (F := Ideal) x0 x1 x3 x4 x5 x6) (h27 : X (Proc.devRef .tc main_v27) = Cert.ReferenceIdeal.Read.val_main_v27 (F := Ideal) x1) :
    StableHlo.after hostOps4 X (Proc.devRef .tc main_v69) = Cert.ReferenceIdeal.Read.val_main_v75 (F := Ideal) x0 x1 x3 x4 x5 x6 := by
  after_results_simp
  rw [hh, h27]
  rfl

/-- The layer's bias as a one-row matrix: a slice of the bias table reshaped to a vector and then to one row, which is
    the reference's slice reshaped to a vector and given a leading unit axis. -/
theorem host4_bias (x6 : (⟨Cert.ReferenceIdeal.S4x256, .f32⟩ : BufTy).Contents (Elt Ideal)) (h6 : X (Proc.devRef .tc main_arg6) = x6) :
    StableHlo.after hostOps4 X (Proc.devRef .tc main_v72) = Cert.ReferenceIdeal.Read.val_main_v79 (F := Ideal) x6 := by
  after_results_simp
  rw [h6]
  exact Cert.Bridge.reshapeRow_eq (C := 256) (φ := .f32) _ _ _

end Cert.KernelIdeal.Rows

end
-- ==== Proof.Host6.lean ====
/-
  The host stretch between a layer's linear transform and its combine step, read at its three results: the
  aggregation (each edge's source row of the transformed features scaled by the edge coefficient, summed into the
  edge's destination row), the self-loop term (the transformed features scaled per node) and the layer's bias as a
  one-row matrix.  Each is the reference's operation chain applied to the same inputs.
-/
import proofs.«109019_j22548578304211_1_alg».proof.Proof.Gen.KernelIdeal.Launch
import proofs.«109019_j22548578304211_1_alg».proof.Proof.Gen.ReferenceIdeal.Read
import proofs.«109019_j22548578304211_1_alg».proof.Proof.LibRowBlocks
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.StableHlo

variable (X : Valuation τ sig (Elt Ideal))

set_option maxHeartbeats 4000000 in
/-- The aggregated messages. -/
theorem host6_agg (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal)) (x6 : (⟨Cert.ReferenceIdeal.S4x256, .f32⟩ : BufTy).Contents (Elt Ideal))
    (hh : X (Proc.devRef .tc main_v76) = Cert.ReferenceIdeal.Read.val_main_v85 (F := Ideal) x0 x1 x3 x4 x5 x6) (h1 : X (Proc.devRef .tc main_v1) = Cert.ReferenceIdeal.Read.val_main_v1 (F := Ideal) x1)
    (h3 : X (Proc.devRef .tc main_v3) = Cert.ReferenceIdeal.Read.val_main_v3 (F := Ideal) x1) (h25 : X (Proc.devRef .tc main_v25) = Cert.ReferenceIdeal.Read.val_main_v25 (F := Ideal) x1) :
    StableHlo.after hostOps6 X (Proc.devRef .tc main_v89) = Cert.ReferenceIdeal.Read.val_main_v98 (F := Ideal) x0 x1 x3 x4 x5 x6 := by
  after_results_simp
  rw [hh, h1, h3, h25]
  rfl

/-- The self-loop term. -/
theorem host6_self (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal)) (x6 : (⟨Cert.ReferenceIdeal.S4x256, .f32⟩ : BufTy).Contents (Elt Ideal))
    (hh : X (Proc.devRef .tc main_v76) = Cert.ReferenceIdeal.Read.val_main_v85 (F := Ideal) x0 x1 x3 x4 x5 x6) (h27 : X (Proc.devRef .tc main_v27) = Cert.ReferenceIdeal.Read.val_main_v27 (F := Ideal) x1) :
    StableHlo.after hostOps6 X (Proc.devRef .tc main_v91) = Cert.ReferenceIdeal.Read.val_main_v100 (F := Ideal) x0 x1 x3 x4 x5 x6 := by
  after_results_simp
  rw [hh, h27]
  rfl

/-- The layer's bias as a one-row matrix: a slice of the bias table reshaped to a vector and then to one row, which is
    the reference's slice reshaped to a vector and given a leading unit axis. -/
theorem host6_bias (x6 : (⟨Cert.ReferenceIdeal.S4x256, .f32⟩ : BufTy).Contents (Elt Ideal)) (h6 : X (Proc.devRef .tc main_arg6) = x6) :
    StableHlo.after hostOps6 X (Proc.devRef .tc main_v94) = Cert.ReferenceIdeal.Read.val_main_v104 (F := Ideal) x6 := by
  after_results_simp
  rw [h6]
  exact Cert.Bridge.reshapeRow_eq (C := 256) (φ := .f32) _ _ _

end Cert.KernelIdeal.Rows

end
-- ==== Proof.Host8.lean ====
/-
  The host stretch between a layer's linear transform and its combine step, read at its three results: the
  aggregation (each edge's source row of the transformed features scaled by the edge coefficient, summed into the
  edge's destination row), the self-loop term (the transformed features scaled per node) and the layer's bias as a
  one-row matrix.  Each is the reference's operation chain applied to the same inputs.
-/
import proofs.«109019_j22548578304211_1_alg».proof.Proof.Gen.KernelIdeal.Launch
import proofs.«109019_j22548578304211_1_alg».proof.Proof.Gen.ReferenceIdeal.Read
import proofs.«109019_j22548578304211_1_alg».proof.Proof.LibRowBlocks
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.StableHlo

variable (X : Valuation τ sig (Elt Ideal))

set_option maxHeartbeats 4000000 in
/-- The aggregated messages. -/
theorem host8_agg (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal)) (x6 : (⟨Cert.ReferenceIdeal.S4x256, .f32⟩ : BufTy).Contents (Elt Ideal))
    (hh : X (Proc.devRef .tc main_v98) = Cert.ReferenceIdeal.Read.val_main_v110 (F := Ideal) x0 x1 x3 x4 x5 x6) (h1 : X (Proc.devRef .tc main_v1) = Cert.ReferenceIdeal.Read.val_main_v1 (F := Ideal) x1)
    (h3 : X (Proc.devRef .tc main_v3) = Cert.ReferenceIdeal.Read.val_main_v3 (F := Ideal) x1) (h25 : X (Proc.devRef .tc main_v25) = Cert.ReferenceIdeal.Read.val_main_v25 (F := Ideal) x1) :
    StableHlo.after hostOps8 X (Proc.devRef .tc main_v111) = Cert.ReferenceIdeal.Read.val_main_v123 (F := Ideal) x0 x1 x3 x4 x5 x6 := by
  after_results_simp
  rw [hh, h1, h3, h25]
  rfl

/-- The self-loop term. -/
theorem host8_self (x0 : (⟨Cert.ReferenceIdeal.S50000x9, .f32⟩ : BufTy).Contents (Elt Ideal)) (x1 : (⟨Cert.ReferenceIdeal.S2x800000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal)) (x6 : (⟨Cert.ReferenceIdeal.S4x256, .f32⟩ : BufTy).Contents (Elt Ideal))
    (hh : X (Proc.devRef .tc main_v98) = Cert.ReferenceIdeal.Read.val_main_v110 (F := Ideal) x0 x1 x3 x4 x5 x6) (h27 : X (Proc.devRef .tc main_v27) = Cert.ReferenceIdeal.Read.val_main_v27 (F := Ideal) x1) :
    StableHlo.after hostOps8 X (Proc.devRef .tc main_v113) = Cert.ReferenceIdeal.Read.val_main_v125 (F := Ideal) x0 x1 x3 x4 x5 x6 := by
  after_results_simp
  rw [hh, h27]
  rfl

/-- The layer's bias as a one-row matrix: a slice of the bias table reshaped to a vector and then to one row, which is
    the reference's slice reshaped to a vector and given a leading unit axis. -/
theorem host8_bias (x6 : (⟨Cert.ReferenceIdeal.S4x256, .f32⟩ : BufTy).Contents (Elt Ideal)) (h6 : X (Proc.devRef .tc main_arg6) = x6) :
    StableHlo.after hostOps8 X (Proc.devRef .tc main_v116) = Cert.ReferenceIdeal.Read.val_main_v129 (F := Ideal) x6 := by
  after_results_simp
  rw [h6]
  exact Cert.Bridge.reshapeRow_eq (C := 256) (φ := .f32) _ _ _

end Cert.KernelIdeal.Rows

end
-- ==== Proof.Host9.lean ====
/-
  The host stretch before the output layer: the last layer's node features summed per graph, divided by the per-graph
  node count (at least 1), and the output bias as a one-entry matrix.  Each is the reference's operation chain on
  the same inputs.
-/
import proofs.«109019_j22548578304211_1_alg».proof.Proof.Gen.KernelIdeal.Launch
import proofs.«109019_j22548578304211_1_alg».proof.Proof.Gen.ReferenceIdeal.Read
import proofs.«109019_j22548578304211_1_alg».proof.Proof.LibRowBlocks
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.StableHlo

variable (X : Valuation τ sig (Elt Ideal))

/-- The pooled features: per-graph sums over the graph-id vector, divided by max(count, 1). -/
theorem host9_pooled (x0 : (⟨Cert.ReferenceIdeal.S50000x9, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S9x256, .f32⟩ : BufTy).Contents (Elt Ideal)) (x4 : (⟨Cert.ReferenceIdeal.S256, .f32⟩ : BufTy).Contents (Elt Ideal)) (x5 : (⟨Cert.ReferenceIdeal.S4x256x256, .f32⟩ : BufTy).Contents (Elt Ideal)) (x6 : (⟨Cert.ReferenceIdeal.S4x256, .f32⟩ : BufTy).Contents (Elt Ideal))
    (hh : X (Proc.devRef .tc main_v117) = Cert.ReferenceIdeal.Read.val_main_v132 (F := Ideal) x0 x1 x3 x4 x5 x6) (h2 : X (Proc.devRef .tc main_arg2) = x2) :
    StableHlo.after hostOps9 X (Proc.devRef .tc main_v129) = Cert.ReferenceIdeal.Read.val_main_v144 (F := Ideal) x0 x1 x2 x3 x4 x5 x6 := by
  after_results
  rw [hh, h2]
  rfl

/-- The output bias as a one-entry matrix: the one-entry vector reshaped, which is the reference's vector given a leading
    unit axis. -/
theorem host9_bias (x8 : (⟨Cert.ReferenceIdeal.S1, .f32⟩ : BufTy).Contents (Elt Ideal)) (h : X (Proc.devRef .tc main_arg8) = x8) :
    StableHlo.after hostOps9 X (Proc.devRef .tc main_v130) = Cert.ReferenceIdeal.Read.val_main_v146 (F := Ideal) x8 := by
  after_results
  rw [h]
  exact Cert.Bridge.reshapeRow_eq (C := 1) (φ := .f32) _ _ _

end Cert.KernelIdeal.Rows

end
-- ==== Proof.KeepEdges.lean ====
/-
  The two edge-index vectors (source and destination node of each edge) are computed once, before the first region;
  no later host operation writes them and no region has them among its arrays, so they are read unchanged at the
  entry of every aggregation stretch.
-/
import proofs.«109019_j22548578304211_1_alg».proof.Proof.Gen.KernelIdeal.Frame

set_option maxRecDepth 16384

noncomputable section

namespace Cert.KernelIdeal.Rows

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem keep_main_v1_1_4 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_main_v1_4_8 (c : Dev nD) : W8 m ρ c (Proc.devRef .tc main_v1) = W4 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v1_8_12 (c : Dev nD) : W12 m ρ c (Proc.devRef .tc main_v1) = W8 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v1_12_16 (c : Dev nD) : W16 m ρ c (Proc.devRef .tc main_v1) = W12 m ρ c (Proc.devRef .tc main_v1) :=
  calc W16 m ρ c (Proc.devRef .tc main_v1)
    _ = W15 m ρ c (Proc.devRef .tc main_v1) := W16_of_ne m ρ c main_v1 (by decide)
    _ = W14 m ρ c (Proc.devRef .tc main_v1) := StableHlo.after_of_forall_not_mem (b := Proc.devRef .tc main_v1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v1) := W14_of_ne m ρ c main_v1 (by decide)
    _ = W12 m ρ c (Proc.devRef .tc main_v1) := StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_1_4 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_main_v3_4_8 (c : Dev nD) : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_8_12 (c : Dev nD) : W12 m ρ c (Proc.devRef .tc main_v3) = W8 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_12_16 (c : Dev nD) : W16 m ρ c (Proc.devRef .tc main_v3) = W12 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := StableHlo.after_of_forall_not_mem (b := Proc.devRef .tc main_v3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v3) := W14_of_ne m ρ c main_v3 (by decide)
    _ = W12 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Rows

end
-- ==== Proof.KeepCoefs.lean ====
/-
  The per-edge coefficient and the per-node self-loop coefficient are computed once, before the first region; no
  later host operation writes them and no region has them among its arrays, so every aggregation stretch reads them
  unchanged.
-/
import proofs.«109019_j22548578304211_1_alg».proof.Proof.Gen.KernelIdeal.Frame

set_option maxRecDepth 16384

noncomputable section

namespace Cert.KernelIdeal.Rows

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem keep_main_v25_1_4 (c : Dev nD) : W4 m ρ c (Proc.devRef .tc main_v25) = W1 m ρ c (Proc.devRef .tc main_v25) :=
  calc W4 m ρ c (Proc.devRef .tc main_v25)
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := W2_of_ne m ρ c main_v25 (by decide)

theorem keep_main_v25_4_8 (c : Dev nD) : W8 m ρ c (Proc.devRef .tc main_v25) = W4 m ρ c (Proc.devRef .tc main_v25) :=
  calc W8 m ρ c (Proc.devRef .tc main_v25)
    _ = W7 m ρ c (Proc.devRef .tc main_v25) := W8_of_ne m ρ c main_v25 (by decide)
    _ = W6 m ρ c (Proc.devRef .tc main_v25) := StableHlo.after_of_forall_not_mem (b := Proc.devRef .tc main_v25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v25) := W6_of_ne m ρ c main_v25 (by decide)
    _ = W4 m ρ c (Proc.devRef .tc main_v25) := StableHlo.after_of_forall_not_mem (b := Proc.devRef .tc main_v25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v25_8_12 (c : Dev nD) : W12 m ρ c (Proc.devRef .tc main_v25) = W8 m ρ c (Proc.devRef .tc main_v25) :=
  calc W12 m ρ c (Proc.devRef .tc main_v25)
    _ = W11 m ρ c (Proc.devRef .tc main_v25) := W12_of_ne m ρ c main_v25 (by decide)
    _ = W10 m ρ c (Proc.devRef .tc main_v25) := StableHlo.after_of_forall_not_mem (b := Proc.devRef .tc main_v25) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v25) := W10_of_ne m ρ c main_v25 (by decide)
    _ = W8 m ρ c (Proc.devRef .tc main_v25) := StableHlo.after_of_forall_not_mem (b := Proc.devRef .tc main_v25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v25_12_16 (c : Dev nD) : W16 m ρ c (Proc.devRef .tc main_v25) = W12 m ρ c (Proc.devRef .tc main_v25) :=
  calc W16 m ρ c (Proc.devRef .tc main_v25)
    _ = W15 m ρ c (Proc.devRef .tc main_v25) := W16_of_ne m ρ c main_v25 (by decide)
    _ = W14 m ρ c (Proc.devRef .tc main_v25) := StableHlo.after_of_forall_not_mem (b := Proc.devRef .tc main_v25) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v25) := W14_of_ne m ρ c main_v25 (by decide)
    _ = W12 m ρ c (Proc.devRef .tc main_v25) := StableHlo.after_of_forall_not_mem (b := Proc.devRef .tc main_v25) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_1_4 (c : Dev nD) : W4 m ρ c (Proc.devRef .tc main_v27) = W1 m ρ c (Proc.devRef .tc main_v27) :=
  calc W4 m ρ c (Proc.devRef .tc main_v27)
    _ = W3 m ρ c (Proc.devRef .tc main_v27) := W4_of_ne m ρ c main_v27 (by decide)
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

theorem keep_main_v27_4_8 (c : Dev nD) : W8 m ρ c (Proc.devRef .tc main_v27) = W4 m ρ c (Proc.devRef .tc main_v27) :=
  calc W8 m ρ c (Proc.devRef .tc main_v27)
    _ = W7 m ρ c (Proc.devRef .tc main_v27) := W8_of_ne m ρ c main_v27 (by decide)
    _ = W6 m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v27) := W6_of_ne m ρ c main_v27 (by decide)
    _ = W4 m ρ c (Proc.devRef .tc main_v27) := StableHlo.after_of_forall_not_mem (b := Proc.devRef .tc main_v27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_8_12 (c : Dev nD) : W12 m ρ c (Proc.devRef .tc main_v27) = W8 m ρ c (Proc.devRef .tc main_v27) :=
  calc W12 m ρ c (Proc.devRef .tc main_v27)
    _ = W11 m ρ c (Proc.devRef .tc main_v27) := W12_of_ne m ρ c main_v27 (by decide)
    _ = W10 m ρ c (Proc.devRef .tc main_v27) := StableHlo.after_of_forall_not_mem (b := Proc.devRef .tc main_v27) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v27) := W10_of_ne m ρ c main_v27 (by decide)
    _ = W8 m ρ c (Proc.devRef .tc main_v27) := StableHlo.after_of_forall_not_mem (b := Proc.devRef .tc main_v27) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v27_12_16 (c : Dev nD) : W16 m ρ c (Proc.devRef .tc main_v27) = W12 m ρ c (Proc.devRef .tc main_v27) :=
  calc W16 m ρ c (Proc.devRef .tc main_v27)
    _ = W15 m ρ c (Proc.devRef .tc main_v27) := W16_of_ne m ρ c main_v27 (by decide)
    _ = W14 m ρ c (Proc.devRef .tc main_v27) := StableHlo.after_of_forall_not_mem (b := Proc.devRef .tc main_v27) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v27) := W14_of_ne m ρ c main_v27 (by decide)
    _ = W12 m ρ c (Proc.devRef .tc main_v27) := StableHlo.after_of_forall_not_mem (b := Proc.devRef .tc main_v27) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Rows

end
-- ==== Proof.KeepWeights.lean ====
/-
  The weight and bias argument arrays are never written: each stretch that slices a layer's weights or bias reads
  them as launched.
-/
import proofs.«109019_j22548578304211_1_alg».proof.Proof.Gen.KernelIdeal.Frame

set_option maxRecDepth 16384

noncomputable section

namespace Cert.KernelIdeal.Rows

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem keep_main_arg5_0_2 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg5_2_6 (c : Dev nD) : W6 m ρ c (Proc.devRef .tc main_arg5) = W2 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg5_6_10 (c : Dev nD) : W10 m ρ c (Proc.devRef .tc main_arg5) = W6 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg5_10_14 (c : Dev nD) : W14 m ρ c (Proc.devRef .tc main_arg5) = W10 m ρ c (Proc.devRef .tc main_arg5) :=
  calc W14 m ρ c (Proc.devRef .tc main_arg5)
    _ = W13 m ρ c (Proc.devRef .tc main_arg5) := W14_of_ne m ρ c main_arg5 (by decide)
    _ = W12 m ρ c (Proc.devRef .tc main_arg5) := StableHlo.after_of_forall_not_mem (b := Proc.devRef .tc main_arg5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_0_4 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_4_8 (c : Dev nD) : W8 m ρ c (Proc.devRef .tc main_arg6) = W4 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_8_12 (c : Dev nD) : W12 m ρ c (Proc.devRef .tc main_arg6) = W8 m ρ c (Proc.devRef .tc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_12_16 (c : Dev nD) : W16 m ρ c (Proc.devRef .tc main_arg6) = W12 m ρ c (Proc.devRef .tc main_arg6) :=
  calc W16 m ρ c (Proc.devRef .tc main_arg6)
    _ = W15 m ρ c (Proc.devRef .tc main_arg6) := W16_of_ne m ρ c main_arg6 (by decide)
    _ = W14 m ρ c (Proc.devRef .tc main_arg6) := StableHlo.after_of_forall_not_mem (b := Proc.devRef .tc main_arg6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg3_0_1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Rows

end
-- ==== Proof.KeepPool.lean ====
/-
  The graph-id vector, the output layer's weight and bias are never written before the pooling stretch reads them; and
  a region's result is untouched by the short stretch between it and the region that consumes it.
-/
import proofs.«109019_j22548578304211_1_alg».proof.Proof.Gen.KernelIdeal.Frame

set_option maxRecDepth 16384

noncomputable section

namespace Cert.KernelIdeal.Rows

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem keep_main_arg2_0_18 (c : Dev nD) : W18 m ρ c (Proc.devRef .tc main_arg2) = W0 m ρ c (Proc.devRef .tc main_arg2) :=
  calc W18 m ρ c (Proc.devRef .tc main_arg2)
    _ = W17 m ρ c (Proc.devRef .tc main_arg2) := W18_of_ne m ρ c main_arg2 (by decide)
    _ = W16 m ρ c (Proc.devRef .tc main_arg2) := StableHlo.after_of_forall_not_mem (b := Proc.devRef .tc main_arg2) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_0_18 (c : Dev nD) : W18 m ρ c (Proc.devRef .tc main_arg8) = W0 m ρ c (Proc.devRef .tc main_arg8) :=
  calc W18 m ρ c (Proc.devRef .tc main_arg8)
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg7_0_19 (c : Dev nD) : W19 m ρ c (Proc.devRef .tc main_arg7) = W0 m ρ c (Proc.devRef .tc main_arg7) :=
  calc W19 m ρ c (Proc.devRef .tc main_arg7)
    _ = W18 m ρ c (Proc.devRef .tc main_arg7) := StableHlo.after_of_forall_not_mem (b := Proc.devRef .tc main_arg7) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg7) := W18_of_ne m ρ c main_arg7 (by decide)
    _ = W16 m ρ c (Proc.devRef .tc main_arg7) := StableHlo.after_of_forall_not_mem (b := Proc.devRef .tc main_arg7) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg7) := W16_of_ne m ρ c main_arg7 (by decide)
    _ = W14 m ρ c (Proc.devRef .tc main_arg7) := StableHlo.after_of_forall_not_mem (b := Proc.devRef .tc main_arg7) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v29_2_3 (c : Dev nD) : W3 m ρ c (Proc.devRef .tc main_v29) = W2 m ρ c (Proc.devRef .tc main_v29) :=
  calc W3 m ρ c (Proc.devRef .tc main_v29)
    _ = W2 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v51_6_7 (c : Dev nD) : W7 m ρ c (Proc.devRef .tc main_v51) = W6 m ρ c (Proc.devRef .tc main_v51) :=
  calc W7 m ρ c (Proc.devRef .tc main_v51)
    _ = W6 m ρ c (Proc.devRef .tc main_v51) := StableHlo.after_of_forall_not_mem (b := Proc.devRef .tc main_v51) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v73_10_11 (c : Dev nD) : W11 m ρ c (Proc.devRef .tc main_v73) = W10 m ρ c (Proc.devRef .tc main_v73) :=
  calc W11 m ρ c (Proc.devRef .tc main_v73)
    _ = W10 m ρ c (Proc.devRef .tc main_v73) := StableHlo.after_of_forall_not_mem (b := Proc.devRef .tc main_v73) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v95_14_15 (c : Dev nD) : W15 m ρ c (Proc.devRef .tc main_v95) = W14 m ρ c (Proc.devRef .tc main_v95) :=
  calc W15 m ρ c (Proc.devRef .tc main_v95)
    _ = W14 m ρ c (Proc.devRef .tc main_v95) := StableHlo.after_of_forall_not_mem (b := Proc.devRef .tc main_v95) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Rows

end
-- ==== Proof.Chain.lean ====
/-
  The contents of each region's result buffer, from the launch memory: by induction along the program, the embedding
  region leaves the reference's embedded features, each layer's transform region the reference's transformed
  features, each combine region the reference's next features, and the output region the reference's result.  Each step
  joins three facts: what the region computes from the arrays it finds (the host's layer on them), what the stretch
  before it leaves in those arrays (the reference's operation chains on earlier results), and that the buffers computed
  once at the start (edge indices, coefficients) and the argument arrays are still as they were.
-/
import proofs.«109019_j22548578304211_1_alg».proof.Proof.Gen.KernelIdeal.Frame
import proofs.«109019_j22548578304211_1_alg».proof.Proof.Gen.ReferenceIdeal.Read
import proofs.«109019_j22548578304211_1_alg».proof.Proof.Layers
import proofs.«109019_j22548578304211_1_alg».proof.Proof.Region0
import proofs.«109019_j22548578304211_1_alg».proof.Proof.Region1
import proofs.«109019_j22548578304211_1_alg».proof.Proof.Region2
import proofs.«109019_j22548578304211_1_alg».proof.Proof.Region3
import proofs.«109019_j22548578304211_1_alg».proof.Proof.Region4
import proofs.«109019_j22548578304211_1_alg».proof.Proof.Region5
import proofs.«109019_j22548578304211_1_alg».proof.Proof.Region6
import proofs.«109019_j22548578304211_1_alg».proof.Proof.Region7
import proofs.«109019_j22548578304211_1_alg».proof.Proof.Region8
import proofs.«109019_j22548578304211_1_alg».proof.Proof.Region9
import proofs.«109019_j22548578304211_1_alg».proof.Proof.Host0
import proofs.«109019_j22548578304211_1_alg».proof.Proof.HostWeights
import proofs.«109019_j22548578304211_1_alg».proof.Proof.Host2
import proofs.«109019_j22548578304211_1_alg».proof.Proof.Host4
import proofs.«109019_j22548578304211_1_alg».proof.Proof.Host6
import proofs.«109019_j22548578304211_1_alg».proof.Proof.Host8
import proofs.«109019_j22548578304211_1_alg».proof.Proof.Host9
import proofs.«109019_j22548578304211_1_alg».proof.Proof.KeepEdges
import proofs.«109019_j22548578304211_1_alg».proof.Proof.KeepCoefs
import proofs.«109019_j22548578304211_1_alg».proof.Proof.KeepWeights
import proofs.«109019_j22548578304211_1_alg».proof.Proof.KeepPool

set_option maxRecDepth 16384

noncomputable section

namespace Cert.KernelIdeal.Rows

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-! ## The buffers computed once, at the entry of each aggregation stretch -/

theorem src_at4 : W4 m ρ c (Proc.devRef .tc main_v1) = Cert.ReferenceIdeal.Read.val_main_v1 (F := Ideal) (m ((c : Thread nD τ).loc main_arg1)) :=
  (keep_main_v1_1_4 m ρ c).trans (host0_src (W0 m ρ c) (m ((c : Thread nD τ).loc main_arg1)) rfl)
theorem src_at8 : W8 m ρ c (Proc.devRef .tc main_v1) = Cert.ReferenceIdeal.Read.val_main_v1 (F := Ideal) (m ((c : Thread nD τ).loc main_arg1)) := (keep_main_v1_4_8 m ρ c).trans (src_at4 m ρ c)
theorem src_at12 : W12 m ρ c (Proc.devRef .tc main_v1) = Cert.ReferenceIdeal.Read.val_main_v1 (F := Ideal) (m ((c : Thread nD τ).loc main_arg1)) := (keep_main_v1_8_12 m ρ c).trans (src_at8 m ρ c)
theorem src_at16 : W16 m ρ c (Proc.devRef .tc main_v1) = Cert.ReferenceIdeal.Read.val_main_v1 (F := Ideal) (m ((c : Thread nD τ).loc main_arg1)) := (keep_main_v1_12_16 m ρ c).trans (src_at12 m ρ c)

theorem dst_at4 : W4 m ρ c (Proc.devRef .tc main_v3) = Cert.ReferenceIdeal.Read.val_main_v3 (F := Ideal) (m ((c : Thread nD τ).loc main_arg1)) :=
  (keep_main_v3_1_4 m ρ c).trans (host0_dst (W0 m ρ c) (m ((c : Thread nD τ).loc main_arg1)) rfl)
theorem dst_at8 : W8 m ρ c (Proc.devRef .tc main_v3) = Cert.ReferenceIdeal.Read.val_main_v3 (F := Ideal) (m ((c : Thread nD τ).loc main_arg1)) := (keep_main_v3_4_8 m ρ c).trans (dst_at4 m ρ c)
theorem dst_at12 : W12 m ρ c (Proc.devRef .tc main_v3) = Cert.ReferenceIdeal.Read.val_main_v3 (F := Ideal) (m ((c : Thread nD τ).loc main_arg1)) := (keep_main_v3_8_12 m ρ c).trans (dst_at8 m ρ c)
theorem dst_at16 : W16 m ρ c (Proc.devRef .tc main_v3) = Cert.ReferenceIdeal.Read.val_main_v3 (F := Ideal) (m ((c : Thread nD τ).loc main_arg1)) := (keep_main_v3_12_16 m ρ c).trans (dst_at12 m ρ c)

theorem edgeCoef_at4 : W4 m ρ c (Proc.devRef .tc main_v25) = Cert.ReferenceIdeal.Read.val_main_v25 (F := Ideal) (m ((c : Thread nD τ).loc main_arg1)) :=
  (keep_main_v25_1_4 m ρ c).trans (host0_edgeCoef (W0 m ρ c) (m ((c : Thread nD τ).loc main_arg1)) rfl)
theorem edgeCoef_at8 : W8 m ρ c (Proc.devRef .tc main_v25) = Cert.ReferenceIdeal.Read.val_main_v25 (F := Ideal) (m ((c : Thread nD τ).loc main_arg1)) := (keep_main_v25_4_8 m ρ c).trans (edgeCoef_at4 m ρ c)
theorem edgeCoef_at12 : W12 m ρ c (Proc.devRef .tc main_v25) = Cert.ReferenceIdeal.Read.val_main_v25 (F := Ideal) (m ((c : Thread nD τ).loc main_arg1)) := (keep_main_v25_8_12 m ρ c).trans (edgeCoef_at8 m ρ c)
theorem edgeCoef_at16 : W16 m ρ c (Proc.devRef .tc main_v25) = Cert.ReferenceIdeal.Read.val_main_v25 (F := Ideal) (m ((c : Thread nD τ).loc main_arg1)) := (keep_main_v25_12_16 m ρ c).trans (edgeCoef_at12 m ρ c)

theorem selfCoef_at4 : W4 m ρ c (Proc.devRef .tc main_v27) = Cert.ReferenceIdeal.Read.val_main_v27 (F := Ideal) (m ((c : Thread nD τ).loc main_arg1)) :=
  (keep_main_v27_1_4 m ρ c).trans (host0_selfCoef (W0 m ρ c) (m ((c : Thread nD τ).loc main_arg1)) rfl)
theorem selfCoef_at8 : W8 m ρ c (Proc.devRef .tc main_v27) = Cert.ReferenceIdeal.Read.val_main_v27 (F := Ideal) (m ((c : Thread nD τ).loc main_arg1)) := (keep_main_v27_4_8 m ρ c).trans (selfCoef_at4 m ρ c)
theorem selfCoef_at12 : W12 m ρ c (Proc.devRef .tc main_v27) = Cert.ReferenceIdeal.Read.val_main_v27 (F := Ideal) (m ((c : Thread nD τ).loc main_arg1)) := (keep_main_v27_8_12 m ρ c).trans (selfCoef_at8 m ρ c)
theorem selfCoef_at16 : W16 m ρ c (Proc.devRef .tc main_v27) = Cert.ReferenceIdeal.Read.val_main_v27 (F := Ideal) (m ((c : Thread nD τ).loc main_arg1)) := (keep_main_v27_12_16 m ρ c).trans (selfCoef_at12 m ρ c)

/-! ## The weight and bias tables, at the entry of each stretch that slices them -/

theorem weights_at2 : W2 m ρ c (Proc.devRef .tc main_arg5) = (m ((c : Thread nD τ).loc main_arg5)) := keep_main_arg5_0_2 m ρ c
theorem weights_at6 : W6 m ρ c (Proc.devRef .tc main_arg5) = (m ((c : Thread nD τ).loc main_arg5)) := (keep_main_arg5_2_6 m ρ c).trans (weights_at2 m ρ c)
theorem weights_at10 : W10 m ρ c (Proc.devRef .tc main_arg5) = (m ((c : Thread nD τ).loc main_arg5)) := (keep_main_arg5_6_10 m ρ c).trans (weights_at6 m ρ c)
theorem weights_at14 : W14 m ρ c (Proc.devRef .tc main_arg5) = (m ((c : Thread nD τ).loc main_arg5)) := (keep_main_arg5_10_14 m ρ c).trans (weights_at10 m ρ c)
theorem biases_at4 : W4 m ρ c (Proc.devRef .tc main_arg6) = (m ((c : Thread nD τ).loc main_arg6)) := keep_main_arg6_0_4 m ρ c
theorem biases_at8 : W8 m ρ c (Proc.devRef .tc main_arg6) = (m ((c : Thread nD τ).loc main_arg6)) := (keep_main_arg6_4_8 m ρ c).trans (biases_at4 m ρ c)
theorem biases_at12 : W12 m ρ c (Proc.devRef .tc main_arg6) = (m ((c : Thread nD τ).loc main_arg6)) := (keep_main_arg6_8_12 m ρ c).trans (biases_at8 m ρ c)
theorem biases_at16 : W16 m ρ c (Proc.devRef .tc main_arg6) = (m ((c : Thread nD τ).loc main_arg6)) := (keep_main_arg6_12_16 m ρ c).trans (biases_at12 m ρ c)

/-! ## The regions' results, in program order -/

/-- The embedding region leaves the reference's embedded node features. -/
theorem embed_out : W2 m ρ c (Proc.devRef .tc main_v29) = Cert.ReferenceIdeal.Read.val_main_v32 (F := Ideal) (m ((c : Thread nD τ).loc main_arg0)) (m ((c : Thread nD τ).loc main_arg3)) (m ((c : Thread nD τ).loc main_arg4)) :=
  calc W2 m ρ c (Proc.devRef .tc main_v29) = (dat0 (V1 m ρ) c).arrAt 3 cfg0.N := W2_arr m ρ c 3
    _ = embedG (V1 m ρ c main_arg0) (V1 m ρ c main_arg3) (V1 m ρ c main_v28) := final0 (V1 m ρ) c
    _ = Cert.ReferenceIdeal.Read.val_main_v32 (F := Ideal) (m ((c : Thread nD τ).loc main_arg0)) (m ((c : Thread nD τ).loc main_arg3)) (m ((c : Thread nD τ).loc main_arg4)) := by
      have e0 : V1 m ρ c main_arg0 = (m ((c : Thread nD τ).loc main_arg0)) := keep_main_arg0_0_1 m ρ c
      have e3 : V1 m ρ c main_arg3 = (m ((c : Thread nD τ).loc main_arg3)) := keep_main_arg3_0_1 m ρ c
      have eb : V1 m ρ c main_v28 = Cert.ReferenceIdeal.Read.val_main_v29 (F := Ideal) (m ((c : Thread nD τ).loc main_arg4)) := host0_bias (W0 m ρ c) (m ((c : Thread nD τ).loc main_arg4)) rfl
      rw [e0, e3, eb]
      rfl

/-- Transform region 1 leaves the reference's transformed features of its layer. -/
theorem dense1_out : W4 m ρ c (Proc.devRef .tc main_v32) = Cert.ReferenceIdeal.Read.val_main_v35 (F := Ideal) (m ((c : Thread nD τ).loc main_arg0)) (m ((c : Thread nD τ).loc main_arg3)) (m ((c : Thread nD τ).loc main_arg4)) (m ((c : Thread nD τ).loc main_arg5)) :=
  calc W4 m ρ c (Proc.devRef .tc main_v32) = (dat1 (V3 m ρ) c).arrAt 2 cfg1.N := W4_arr m ρ c 2
    _ = denseG (V3 m ρ c main_v29) (V3 m ρ c main_v31) := final1 (V3 m ρ) c
    _ = Cert.ReferenceIdeal.Read.val_main_v35 (F := Ideal) (m ((c : Thread nD τ).loc main_arg0)) (m ((c : Thread nD τ).loc main_arg3)) (m ((c : Thread nD τ).loc main_arg4)) (m ((c : Thread nD τ).loc main_arg5)) := by
      have eh : V3 m ρ c main_v29 = Cert.ReferenceIdeal.Read.val_main_v32 (F := Ideal) (m ((c : Thread nD τ).loc main_arg0)) (m ((c : Thread nD τ).loc main_arg3)) (m ((c : Thread nD τ).loc main_arg4)) := (keep_main_v29_2_3 m ρ c).trans (embed_out m ρ c)
      have ew : V3 m ρ c main_v31 = Cert.ReferenceIdeal.Read.val_main_v34 (F := Ideal) (m ((c : Thread nD τ).loc main_arg5)) := host1_weights (W2 m ρ c) (m ((c : Thread nD τ).loc main_arg5)) (weights_at2 m ρ c)
      rw [eh, ew]
      rfl

/-- Combine region 2 leaves the reference's features after its layer. -/
theorem combine2_out : W6 m ρ c (Proc.devRef .tc main_v51) = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W6 m ρ c (Proc.devRef .tc main_v51) = (dat2 (V5 m ρ) c).arrAt 3 cfg2.N := W6_arr m ρ c 3
    _ = combineG (V5 m ρ c main_v45) (V5 m ρ c main_v47) (V5 m ρ c main_v50) := final2 (V5 m ρ) c
    _ = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
      have ea : V5 m ρ c main_v45 = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
        host2_agg (W4 m ρ c) (m ((c : Thread nD τ).loc main_arg0)) (m ((c : Thread nD τ).loc main_arg1)) (m ((c : Thread nD τ).loc main_arg3)) (m ((c : Thread nD τ).loc main_arg4)) (m ((c : Thread nD τ).loc main_arg5)) (dense1_out m ρ c) (src_at4 m ρ c) (dst_at4 m ρ c) (edgeCoef_at4 m ρ c)
      have es : V5 m ρ c main_v47 = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
        host2_self (W4 m ρ c) (m ((c : Thread nD τ).loc main_arg0)) (m ((c : Thread nD τ).loc main_arg1)) (m ((c : Thread nD τ).loc main_arg3)) (m ((c : Thread nD τ).loc main_arg4)) (m ((c : Thread nD τ).loc main_arg5)) (dense1_out m ρ c) (selfCoef_at4 m ρ c)
      have eb : V5 m ρ c main_v50 = Cert.ReferenceIdeal.Read.val_main_v54 (F := Ideal) (m ((c : Thread nD τ).loc main_arg6)) := host2_bias (W4 m ρ c) (m ((c : Thread nD τ).loc main_arg6)) (biases_at4 m ρ c)
      rw [ea, es, eb]
      rfl

/-- Transform region 3 leaves the reference's transformed features of its layer. -/
theorem dense3_out : W8 m ρ c (Proc.devRef .tc main_v54) = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W8 m ρ c (Proc.devRef .tc main_v54) = (dat3 (V7 m ρ) c).arrAt 2 cfg3.N := W8_arr m ρ c 2
    _ = denseG (V7 m ρ c main_v51) (V7 m ρ c main_v53) := final3 (V7 m ρ) c
    _ = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
      have eh : V7 m ρ c main_v51 = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (keep_main_v51_6_7 m ρ c).trans (combine2_out m ρ c)
      have ew : V7 m ρ c main_v53 = Cert.ReferenceIdeal.Read.val_main_v59 (F := Ideal) (m ((c : Thread nD τ).loc main_arg5)) := host3_weights (W6 m ρ c) (m ((c : Thread nD τ).loc main_arg5)) (weights_at6 m ρ c)
      rw [eh, ew]
      rfl

/-- Combine region 4 leaves the reference's features after its layer. -/
theorem combine4_out : W10 m ρ c (Proc.devRef .tc main_v73) = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W10 m ρ c (Proc.devRef .tc main_v73) = (dat4 (V9 m ρ) c).arrAt 3 cfg4.N := W10_arr m ρ c 3
    _ = combineG (V9 m ρ c main_v67) (V9 m ρ c main_v69) (V9 m ρ c main_v72) := final4 (V9 m ρ) c
    _ = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
      have ea : V9 m ρ c main_v67 = Cert.ReferenceIdeal.Read.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
        host4_agg (W8 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (dense3_out m ρ c) (src_at8 m ρ c) (dst_at8 m ρ c) (edgeCoef_at8 m ρ c)
      have es : V9 m ρ c main_v69 = Cert.ReferenceIdeal.Read.val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
        host4_self (W8 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (dense3_out m ρ c) (selfCoef_at8 m ρ c)
      have eb : V9 m ρ c main_v72 = Cert.ReferenceIdeal.Read.val_main_v79 (F := Ideal) (m ((c : Thread nD τ).loc main_arg6)) := host4_bias (W8 m ρ c) (m ((c : Thread nD τ).loc main_arg6)) (biases_at8 m ρ c)
      rw [ea, es, eb]
      rfl

/-- Transform region 5 leaves the reference's transformed features of its layer. -/
theorem dense5_out : W12 m ρ c (Proc.devRef .tc main_v76) = Cert.ReferenceIdeal.Read.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W12 m ρ c (Proc.devRef .tc main_v76) = (dat5 (V11 m ρ) c).arrAt 2 cfg5.N := W12_arr m ρ c 2
    _ = denseG (V11 m ρ c main_v73) (V11 m ρ c main_v75) := final5 (V11 m ρ) c
    _ = Cert.ReferenceIdeal.Read.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
      have eh : V11 m ρ c main_v73 = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (keep_main_v73_10_11 m ρ c).trans (combine4_out m ρ c)
      have ew : V11 m ρ c main_v75 = Cert.ReferenceIdeal.Read.val_main_v84 (F := Ideal) (m ((c : Thread nD τ).loc main_arg5)) := host5_weights (W10 m ρ c) (m ((c : Thread nD τ).loc main_arg5)) (weights_at10 m ρ c)
      rw [eh, ew]
      rfl

/-- Combine region 6 leaves the reference's features after its layer. -/
theorem combine6_out : W14 m ρ c (Proc.devRef .tc main_v95) = Cert.ReferenceIdeal.Read.val_main_v107 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W14 m ρ c (Proc.devRef .tc main_v95) = (dat6 (V13 m ρ) c).arrAt 3 cfg6.N := W14_arr m ρ c 3
    _ = combineG (V13 m ρ c main_v89) (V13 m ρ c main_v91) (V13 m ρ c main_v94) := final6 (V13 m ρ) c
    _ = Cert.ReferenceIdeal.Read.val_main_v107 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
      have ea : V13 m ρ c main_v89 = Cert.ReferenceIdeal.Read.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
        host6_agg (W12 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (dense5_out m ρ c) (src_at12 m ρ c) (dst_at12 m ρ c) (edgeCoef_at12 m ρ c)
      have es : V13 m ρ c main_v91 = Cert.ReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
        host6_self (W12 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (dense5_out m ρ c) (selfCoef_at12 m ρ c)
      have eb : V13 m ρ c main_v94 = Cert.ReferenceIdeal.Read.val_main_v104 (F := Ideal) (m ((c : Thread nD τ).loc main_arg6)) := host6_bias (W12 m ρ c) (m ((c : Thread nD τ).loc main_arg6)) (biases_at12 m ρ c)
      rw [ea, es, eb]
      rfl

/-- Transform region 7 leaves the reference's transformed features of its layer. -/
theorem dense7_out : W16 m ρ c (Proc.devRef .tc main_v98) = Cert.ReferenceIdeal.Read.val_main_v110 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W16 m ρ c (Proc.devRef .tc main_v98) = (dat7 (V15 m ρ) c).arrAt 2 cfg7.N := W16_arr m ρ c 2
    _ = denseG (V15 m ρ c main_v95) (V15 m ρ c main_v97) := final7 (V15 m ρ) c
    _ = Cert.ReferenceIdeal.Read.val_main_v110 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
      have eh : V15 m ρ c main_v95 = Cert.ReferenceIdeal.Read.val_main_v107 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (keep_main_v95_14_15 m ρ c).trans (combine6_out m ρ c)
      have ew : V15 m ρ c main_v97 = Cert.ReferenceIdeal.Read.val_main_v109 (F := Ideal) (m ((c : Thread nD τ).loc main_arg5)) := host7_weights (W14 m ρ c) (m ((c : Thread nD τ).loc main_arg5)) (weights_at14 m ρ c)
      rw [eh, ew]
      rfl

/-- Combine region 8 leaves the reference's features after its layer. -/
theorem combine8_out : W18 m ρ c (Proc.devRef .tc main_v117) = Cert.ReferenceIdeal.Read.val_main_v132 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W18 m ρ c (Proc.devRef .tc main_v117) = (dat8 (V17 m ρ) c).arrAt 3 cfg8.N := W18_arr m ρ c 3
    _ = combineG (V17 m ρ c main_v111) (V17 m ρ c main_v113) (V17 m ρ c main_v116) := final8 (V17 m ρ) c
    _ = Cert.ReferenceIdeal.Read.val_main_v132 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
      have ea : V17 m ρ c main_v111 = Cert.ReferenceIdeal.Read.val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
        host8_agg (W16 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (dense7_out m ρ c) (src_at16 m ρ c) (dst_at16 m ρ c) (edgeCoef_at16 m ρ c)
      have es : V17 m ρ c main_v113 = Cert.ReferenceIdeal.Read.val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
        host8_self (W16 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (dense7_out m ρ c) (selfCoef_at16 m ρ c)
      have eb : V17 m ρ c main_v116 = Cert.ReferenceIdeal.Read.val_main_v129 (F := Ideal) (m ((c : Thread nD τ).loc main_arg6)) := host8_bias (W16 m ρ c) (m ((c : Thread nD τ).loc main_arg6)) (biases_at16 m ρ c)
      rw [ea, es, eb]
      rfl

/-- The output region leaves the reference's result. -/
theorem output_out : W20 m ρ c (Proc.devRef .tc main_v131) = Cert.ReferenceIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  calc W20 m ρ c (Proc.devRef .tc main_v131) = (dat9 (V19 m ρ) c).arrAt 3 cfg9.N := W20_arr m ρ c 3
    _ = outputG (V19 m ρ c main_v129) (V19 m ρ c main_arg7) (V19 m ρ c main_v130) := final9 (V19 m ρ) c
    _ = Cert.ReferenceIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
      have ep : V19 m ρ c main_v129 = Cert.ReferenceIdeal.Read.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
        host9_pooled (W18 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (combine8_out m ρ c) (keep_main_arg2_0_18 m ρ c)
      have e7 : V19 m ρ c main_arg7 = (m ((c : Thread nD τ).loc main_arg7)) := keep_main_arg7_0_19 m ρ c
      have eb : V19 m ρ c main_v130 = Cert.ReferenceIdeal.Read.val_main_v146 (F := Ideal) (m ((c : Thread nD τ).loc main_arg8)) := host9_bias (W18 m ρ c) (m ((c : Thread nD τ).loc main_arg8)) (keep_main_arg8_0_18 m ρ c)
      rw [ep, e7, eb]
      rfl

end Cert.KernelIdeal.Rows

end
-- ==== Proof.lean ====
/-
  A four-layer graph convolution network with mean pooling, computed two ways over the extended reals.

  Both programs first compute, from the edge list, each node's degree (with a self-loop), dinv = deg^(-1/2), the edge
  coefficient dinv[src]·dinv[dst] and the self-loop coefficient dinv².  Then
    h₀ = max(x·W_e + b_e, 0),
    h_{l+1} = max((A(h_l·W_l) + (h_l·W_l)·dinv²) + b_l, 0)   for l = 0, 1, 2, 3,
  where A scales each edge's source row by the edge coefficient and adds it into the edge's destination row, and finally
    out = (per-graph sum of h₄ / max(per-graph count, 1))·w_o + b_o.
  The reference does every step with whole-array host operations.  The kernel does the edge arithmetic and the pooling
  with the same host operations, and the dense steps — the embedding, each layer's product h·W, each layer's
  max((a + s) + b, 0), and the output projection — in regions that walk the rows in blocks of 5000 or 2000 (the
  output: one block).  A block of rows of x·W is the product of that block of rows of x with W, and the bias row and the
  entrywise steps act row by row, so each region's result array is the host's layer on the arrays it finds; the sums
  inside the products are the same finite sums of extended reals on both sides, and no law that needs finiteness is
  used.  Composing the ten regions with the stretches between them gives the reference's result term of the arguments.
-/
import proofs.«109019_j22548578304211_1_alg».proof.Defs
import proofs.«109019_j22548578304211_1_alg».proof.Proof.Gen.Kernel
import proofs.«109019_j22548578304211_1_alg».proof.Proof.Gen.Kernel.Frame
import proofs.«109019_j22548578304211_1_alg».proof.Proof.Gen.KernelIdeal
import proofs.«109019_j22548578304211_1_alg».proof.Proof.Gen.KernelIdeal.Frame
import proofs.«109019_j22548578304211_1_alg».proof.Proof.Gen.ReferenceIdeal
import proofs.«109019_j22548578304211_1_alg».proof.Proof.Gen.ReferenceIdeal.Run
import proofs.«109019_j22548578304211_1_alg».proof.Proof.Gen.ReferenceIdeal.Read
import proofs.«109019_j22548578304211_1_alg».proof.Proof.Gen.Pre_finite_inputs
import proofs.«109019_j22548578304211_1_alg».proof.Proof.KRun
import proofs.«109019_j22548578304211_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it terminates and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result term of the (agreeing) arguments. -/
theorem algebraic : Cert.algebraic_KernelIdeal_ReferenceIdeal := by
  intro m ρ m' ρ' _ hagree
  refine ⟨fun c => Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Rows.output_out m ρ c), (h c).2⟩)
      (Cert.KernelIdeal.Rows.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v148_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
